-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4 : Shape := ⟨1, ![4]⟩
abbrev S4x512x3 : Shape := ⟨3, ![4, 512, 3]⟩
abbrev S4x512 : Shape := ⟨2, ![4, 512]⟩
abbrev S4x8192 : Shape := ⟨2, ![4, 8192]⟩
abbrev S4x512x512 : Shape := ⟨3, ![4, 512, 512]⟩
abbrev S4x512x1 : Shape := ⟨3, ![4, 512, 1]⟩
abbrev S4x1x512 : Shape := ⟨3, ![4, 1, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4, .f32⟩
  | .local _ .vmem, ⟨5, _⟩ => ⟨S4x512, .f32⟩
  | .local _ .vmem, ⟨6, _⟩ => ⟨S4x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v34 : BitVec 32 := Scalar.muli arg1 c512_i32
  v34
def k0_off1 (i : grid0.Coords) : Fin 2 → Nat :=
  let c0_18 : Index := 0#32
  let arg1 : BitVec 32 := BitVec.ofNat 32 (i 1).val
  let c512_i32 : BitVec 32 := 512#32
  let v34 : BitVec 32 := Scalar.muli arg1 c512_i32
  let v35 : BitVec 32 := v34
  let v36 : Index := Scalar.indexCast v35
  ![0, v36.toNat]
def k0_cond3 (i : grid0.Coords) : BitVec 1 :=
  let arg0 : BitVec 32 := BitVec.ofNat 32 (i 0).val
  let c15_i32_21 : BitVec 32 := 15#32
  let v45 : BitVec 1 := Scalar.cmpi .eq arg0 c15_i32_21
  let v46 : BitVec 32 := Scalar.extui v45
  let c0_i32_22 : BitVec 32 := 0#32
  let v47 : BitVec 1 := Scalar.cmpi .ne v46 c0_i32_22
  v47

def k0_off2 (i : grid0.Coords) : Fin 2 → Nat :=
  let c0_23 : Index := 0#32
  let arg1 : BitVec 32 := BitVec.ofNat 32 (i 1).val
  let c512_i32 : BitVec 32 := 512#32
  let v34 : BitVec 32 := Scalar.muli arg1 c512_i32
  let v35 : BitVec 32 := v34
  let v48 : Index := Scalar.indexCast v35
  ![0, v48.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S_S4x8192x3 : S_.BroadcastsInDim S4x8192x3 (![] : Fin 0 → Fin S4x8192x3.rank)
  inb_S4_S4_0 : ∀ a, (![0] : Fin 1 → Nat) a + S4.size a ≤ S4.size a
  h_S4 : 0 < S4.numel
  inb_S4x512x3_S4x512x3_0_0_0 : ∀ a, (![0, 0, 0] : Fin 3 → Nat) a + S4x512x3.size a ≤ S4x512x3.size a
  h_S4x512x3 : 0 < S4x512x3.numel
  shapeCasts_S4x512x3_S4x512x3 : S4x512x3.ShapeCasts S4x512x3
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reduces_S4x512_S4 : S4x512.Reduces [1] S4
  shapeCasts_S4_S4 : S4.ShapeCasts S4
  reduces_S4x512x512_S4x512_2 : S4x512x512.Reduces [1] S4x512
  dot_S4x512x3_S4x512x3_S4x512x512_2_2_1_1_0_0_wf : DotDims.WF S4x512x3 S4x512x3 S4x512x512 [2] [2] [1] [1] [0] [0]
  hrank0 : 0 < grid0.rank
  k0_mult1_dvd : ∀ i : grid0.Coords, 128 ∣ (k0_mult1 i).toNat
  k0_off1_inb : ∀ i : grid0.Coords, ∀ a, (k0_off1 i) a + S4x512.size a ≤ S4x8192.size a
  k0_off2_inb : ∀ i : grid0.Coords, ∀ (k0_h3 : k0_cond3 i = 1#1), ∀ a, (k0_off2 i) a + S4x512.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_v1) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x8192x3, .f32⟩
  | .hbm, ⟨12, _⟩ => ⟨S_, .f32⟩
  | .hbm, ⟨13, _⟩ => ⟨S4x8192, .f32⟩
  | .hbm, ⟨14, _⟩ => ⟨S4x8192x8192, .f32⟩
  | .hbm, ⟨15, _⟩ => ⟨S4x8192x1, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S4x8192x3 : S_.BroadcastsInDim S4x8192x3 (![] : Fin 0 → Fin S4x8192x3.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BodyBits.lean ====
/-
  One grid point of the kernel: what it makes of the buffers it carries, as three pure maps, and the proof that the
  printed body computes exactly those, whichever of its three conditions (first point; last column tile; last row
  tile) hold.
-/
import proofs.«169811_j3813930959465_1_alg».proof.Proof.Gen.Kernel.Frame
import proofs.«169811_j3813930959465_1_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point as three pure maps

What a grid point makes of the three buffers it carries — the output block `o` (4 numbers), the row accumulator `r`
(4 × 512) and the column accumulator `cc` (4 × 8192) — given the two input blocks `x0`, `x1`. -/

/-- The columns of the column accumulator the point works on: all 4 rows, 512 columns from the point's offset. -/
abbrev rcol (i : grid0.Coords) : Rect S4x8192 := Rect.unit (s := S4x8192) (k0_off1 i) S4x512.size (k0_off1_inb i)

/-- The row accumulator after the point: the stored value. -/
def rNext (i : grid0.Coords) (x0 x1 : Vec F S4x512x3 .f32) (r : Vec F S4x512 .f32) : Vec F S4x512 .f32 :=
  k0_pay5 i x0 x1 r

/-- The column accumulator after the point: the point's columns overwritten by the stored value, the rest kept. -/
def cNext (i : grid0.Coords) (x0 x1 : Vec F S4x512x3 .f32) (cc : Vec F S4x8192 .f32) : Vec F S4x8192 .f32 :=
  (rcol i).overlay cc (k0_pay1 (BitVec.ofNat 32 (i 0).val) (k0_pay4 x0 x1) (View.ld cc (rcol i)))

/-- The output block after the point: reset at the first point, a row-tile's mean added at the end of a sweep of
    columns, a column-tile's mean added during the last sweep of rows. -/
def oNext (i : grid0.Coords) (x0 x1 : Vec F S4x512x3 .f32) (o : Vec F S4 .f32) (r : Vec F S4x512 .f32) (cc : Vec F S4x8192 .f32) :
    Vec F S4 .f32 :=
  let o1 : Vec F S4 .f32 := if k0_cond1 i = 1#1 then k0_pay3 else o
  let o2 : Vec F S4 .f32 := if k0_cond2 i = 1#1 then k0_pay6 (rNext i x0 x1 r) o1 else o1
  if k0_cond3 i = 1#1 then k0_pay2 (View.ld (cNext i x0 x1 cc) (rcol i)) o2 else o2

/-! ## Reading a buffer back after stores -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

section Reads
variable {sig' : RefSig} {κ : Kind} {sp : Space} {S : Shape} {e : EltTy} {Val : EltTy → Type}

/-- A store through the whole buffer, made last, leaves its payload. -/
theorem read_writes_whole_last (v : View sig' κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz; funext y
  have h := View.read_writes_cons_emb v f (Rect.whole S) w L y
  rw [Rect.emb_whole_apply] at h
  exact h

/-- One store through a rectangle leaves the payload on the rectangle and the old contents elsewhere. -/
theorem read_writes_single (v : View sig' κ sp S e) (f : v.ty.Contents Val) (r : Rect S) (w : r.shape.Idx → Val e) :
    v.read Val (v.writes Val f [(⟨r, w⟩ : View.Piece Val S e)]) = r.overlay (v.read Val f) w := by
  funext j
  by_cases hj : j ∈ r.set
  · obtain ⟨x, rfl⟩ := r.exists_idx_of_mem hj
    change v.read Val _ (r.emb x) = r.overlay _ w (r.emb x)
    rw [View.read_writes_cons_emb, Rect.overlay_emb]
  · rw [Rect.overlay_of_not_mem _ _ _ hj, View.writes_cons,
      View.read_slice_write_of_not_mem _ _ _ _ (by rwa [Rect.map_emb_univ]), View.writes_nil]

/-- A load of the whole buffer after stores of which the last went through the whole buffer reads that payload. -/
theorem readCov_whole_last (v : View sig' κ sp S e) [∀ e, Nonempty (Val e)] {off : Fin S.rank → ℕ} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst hz; funext j
  have h := View.read_writes_cons_emb v v.junk (Rect.whole S) w L j
  exact h

/-- A load through the rectangle of the one store made reads that store's payload. -/
theorem readCov_same (v : View sig' κ sp S e) [∀ e, Nonempty (Val e)] (r : Rect S) (w : r.shape.Idx → Val e) :
    v.readCov [(⟨r, w⟩ : View.Piece Val S e)] r.toLoadRect = w :=
  funext fun j => View.read_writes_cons_emb v v.junk r w [] j

/-- Reading the rectangle back off an overlay gives what was laid over it. -/
theorem ld_overlay_same (r : Rect S) (X : S.Idx → Val e) (w : r.shape.Idx → Val e) :
    View.ld (r.overlay X w) r = w :=
  funext fun j => r.overlay_emb X w j

end Reads

theorem off2_eq (i : grid0.Coords) : k0_off2 i = k0_off1 i := rfl

set_option maxHeartbeats 2000000 in
theorem run_FFF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : ¬ k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_neg hc2, if_neg hc3]
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TFF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : ¬ k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_neg hc2, if_neg hc3]
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FTF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_pos hc2, if_neg hc3]
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FFT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : ¬ k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_neg hc2, if_pos hc3]
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FTT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_pos hc2, if_pos hc3]
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TTF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_pos hc2, if_neg hc3]
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TFT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : ¬ k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_neg hc2, if_pos hc3]
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TTT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_pos hc2, if_pos hc3]
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

/-- The body at any point, whichever of its three conditions hold: from the two input blocks and the three carried
    buffers at any contents, it ends with the inputs as they were and the carried buffers at the three maps above. -/
theorem body_run (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  by_cases hc1 : k0_cond1 i = 1#1 <;> by_cases hc2 : k0_cond2 i = 1#1 <;> by_cases hc3 : k0_cond3 i = 1#1
  · exact run_TTT c i arg2 harg2 arg3 harg3 arg4 harg4 arg5 harg5 arg6 harg6 hc1 hc2 hc3 x0 x1 o r cc E K
  · exact run_TTF c i arg2 harg2 arg3 harg3 arg4 harg4 arg5 harg5 arg6 harg6 hc1 hc2 hc3 x0 x1 o r cc E K
  · exact run_TFT c i arg2 harg2 arg3 harg3 arg4 harg4 arg5 harg5 arg6 harg6 hc1 hc2 hc3 x0 x1 o r cc E K
  · exact run_TFF c i arg2 harg2 arg3 harg3 arg4 harg4 arg5 harg5 arg6 harg6 hc1 hc2 hc3 x0 x1 o r cc E K
  · exact run_FTT c i arg2 harg2 arg3 harg3 arg4 harg4 arg5 harg5 arg6 harg6 hc1 hc2 hc3 x0 x1 o r cc E K
  · exact run_FTF c i arg2 harg2 arg3 harg3 arg4 harg4 arg5 harg5 arg6 harg6 hc1 hc2 hc3 x0 x1 o r cc E K
  · exact run_FFT c i arg2 harg2 arg3 harg3 arg4 harg4 arg5 harg5 arg6 harg6 hc1 hc2 hc3 x0 x1 o r cc E K
  · exact run_FFF c i arg2 harg2 arg3 harg3 arg4 harg4 arg5 harg5 arg6 harg6 hc1 hc2 hc3 x0 x1 o r cc E K

end Cert.Kernel.Body

end
-- ==== Proof.FrameBits.lean ====
/-
  The frame of the word-level program: every weakly fair execution of @main terminates without a fault and leaves the
  two argument arrays as launched.  The launch side is the generated launch lemmas; the body at a grid point is `Body.body_run`.
  The output window is forgotten: its staging buffer is handed to the body at any contents and taken back at any
  contents, so nothing of what the kernel computes is named here.
-/
import proofs.«169811_j3813930959465_1_alg».proof.Proof.Gen.Kernel.Frame
import proofs.«169811_j3813930959465_1_alg».proof.Proof.BodyBits

set_option maxRecDepth 16384

noncomputable section

namespace Cert.Kernel.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows whose contents after the body are not named: the output window (2). -/
def fgt : Fin cfg0.W → Bool := fun w => match w with
  | ⟨0, _⟩ => false
  | ⟨1, _⟩ => false
  | ⟨2, _⟩ => true

/-- The proof data on core `c`: the arrays as the region finds them; after the body at a point each input's buffer
    still at its block, the output's not named; the invariant the scoped rest (the two scratch buffers at anything)
    and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The inputs are never idle. -/
theorem liveAt0_0 (t : Fin cfg0.N) : cfg0.idle 0 (grid0.coords t) = false := rfl
theorem liveAt0_1 (t : Fin cfg0.N) : cfg0.idle 1 (grid0.coords t) = false := rfl

/-! ## The memrefs the body is called with -/

abbrev ms0_0 (t : Fin cfg0.N) : Memref sig .tc .vmem S4x512x3 .f32 := win0_0.stage (cfg0.slots t 0)
abbrev ms0_1 (t : Fin cfg0.N) : Memref sig .tc .vmem S4x512x3 .f32 := win0_1.stage (cfg0.slots t 1)
abbrev ms0_2 (t : Fin cfg0.N) : Memref sig .tc .vmem S4 .f32 := win0_2.stage (cfg0.slots t 2)
/-- The two scratch operands: whole scoped buffers of the kernel's own. -/
abbrev scM0_0 : Memref sig .tc .vmem S4x512 .f32 := Memref.whole cc0_scratch0
abbrev scM0_1 : Memref sig .tc .vmem S4x8192 .f32 := Memref.whole cc0_scratch1

/-- The invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body obligation -/

/-- What the body is called with at point `t`, the windows one by one (the output's buffer at anything), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))

/-- and what it returns (the output's buffer at anything again). -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d))

/-- The body at any point: the inputs' memrefs hold their blocks, the output's and the two scratch buffers hold
    something; the body runs and hands the inputs back unchanged and the three others at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).Φ t.castSucc = Pipeline.ΦA spec0 c from rfl, PhiA0_eq]
  iintro ⟨⟨⟨⟨%r0, HS0⟩, ⟨%c0, HS1⟩⟩, Hg⟩, Ho, ⟨%d0, H0⟩, ⟨%d1, H1⟩, ⟨%X, H2⟩⟩
  iapply (Body.body_run c (grid0.coords t) _ _ _ _ _ _ _ _ _ _ (iblk m c 0 t) (iblk m c 1 t) X r0 c0 Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hg]
  · isplitl [HS0 HS1]
    · isplitl [HS0]
      · iexists _; iexact HS0
      · iexists _; iexact HS1
    · iexact Hg
  isplitl [Ho]; · iexact Ho
  isplitl [H0]; · iexact H0
  isplitl [H1]; · iexact H1
  iexists _; iexact H2

/-- The library's body obligation, at every point, the output window forgotten. -/
theorem body_obligation (c : Dev nD) : BodyObligation (dats (F := F) m 0 c) (defs₀ (F := F)) Variants.none () Set.univ fgt := fun t => by
  rw [bigSep_W0, bigSep_W0]
  exact sound_body m c t

/-! ## The run and the frame -/

set_option backward.isDefEq.respectTransparency.types false in
/-- Every weakly fair execution of @main on the TensorCores terminates, and every final state has every input array of
    the pipeline unchanged, nothing stated of the forgotten output, and every other unscoped buffer at its contents
    when the region was entered. -/
theorem run_main : θ_run defs (onTc (τ := τ) (main (F := F))) (s₀ m ρ) (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => ((dats m 0 c).toRForget fgt).share_full fun _ => rfl)
    (howed := fun _ _ => rfl) (V := V m) (hmain := hmain m Variants.none) (hA := A_eq m) (hΦ := fun _ _ => rfl)

/-- THE FRAME: the two argument arrays are no window's array and no host operation before the region writes them, so
    they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.FrameBits

end
-- ==== Proof.BodyIdeal.lean ====
/-
  One grid point of the kernel: what it makes of the buffers it carries, as three pure maps, and the proof that the
  printed body computes exactly those, whichever of its three conditions (first point; last column tile; last row
  tile) hold.
-/
import proofs.«169811_j3813930959465_1_alg».proof.Proof.Gen.KernelIdeal.Frame
import proofs.«169811_j3813930959465_1_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point as three pure maps

What a grid point makes of the three buffers it carries — the output block `o` (4 numbers), the row accumulator `r`
(4 × 512) and the column accumulator `cc` (4 × 8192) — given the two input blocks `x0`, `x1`. -/

/-- The columns of the column accumulator the point works on: all 4 rows, 512 columns from the point's offset. -/
abbrev rcol (i : grid0.Coords) : Rect S4x8192 := Rect.unit (s := S4x8192) (k0_off1 i) S4x512.size (k0_off1_inb i)

/-- The row accumulator after the point: the stored value. -/
def rNext (i : grid0.Coords) (x0 x1 : Vec F S4x512x3 .f32) (r : Vec F S4x512 .f32) : Vec F S4x512 .f32 :=
  k0_pay5 i x0 x1 r

/-- The column accumulator after the point: the point's columns overwritten by the stored value, the rest kept. -/
def cNext (i : grid0.Coords) (x0 x1 : Vec F S4x512x3 .f32) (cc : Vec F S4x8192 .f32) : Vec F S4x8192 .f32 :=
  (rcol i).overlay cc (k0_pay1 (BitVec.ofNat 32 (i 0).val) (k0_pay4 x0 x1) (View.ld cc (rcol i)))

/-- The output block after the point: reset at the first point, a row-tile's mean added at the end of a sweep of
    columns, a column-tile's mean added during the last sweep of rows. -/
def oNext (i : grid0.Coords) (x0 x1 : Vec F S4x512x3 .f32) (o : Vec F S4 .f32) (r : Vec F S4x512 .f32) (cc : Vec F S4x8192 .f32) :
    Vec F S4 .f32 :=
  let o1 : Vec F S4 .f32 := if k0_cond1 i = 1#1 then k0_pay3 else o
  let o2 : Vec F S4 .f32 := if k0_cond2 i = 1#1 then k0_pay6 (rNext i x0 x1 r) o1 else o1
  if k0_cond3 i = 1#1 then k0_pay2 (View.ld (cNext i x0 x1 cc) (rcol i)) o2 else o2

/-! ## Reading a buffer back after stores -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

section Reads
variable {sig' : RefSig} {κ : Kind} {sp : Space} {S : Shape} {e : EltTy} {Val : EltTy → Type}

/-- A store through the whole buffer, made last, leaves its payload. -/
theorem read_writes_whole_last (v : View sig' κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz; funext y
  have h := View.read_writes_cons_emb v f (Rect.whole S) w L y
  rw [Rect.emb_whole_apply] at h
  exact h

/-- One store through a rectangle leaves the payload on the rectangle and the old contents elsewhere. -/
theorem read_writes_single (v : View sig' κ sp S e) (f : v.ty.Contents Val) (r : Rect S) (w : r.shape.Idx → Val e) :
    v.read Val (v.writes Val f [(⟨r, w⟩ : View.Piece Val S e)]) = r.overlay (v.read Val f) w := by
  funext j
  by_cases hj : j ∈ r.set
  · obtain ⟨x, rfl⟩ := r.exists_idx_of_mem hj
    change v.read Val _ (r.emb x) = r.overlay _ w (r.emb x)
    rw [View.read_writes_cons_emb, Rect.overlay_emb]
  · rw [Rect.overlay_of_not_mem _ _ _ hj, View.writes_cons,
      View.read_slice_write_of_not_mem _ _ _ _ (by rwa [Rect.map_emb_univ]), View.writes_nil]

/-- A load of the whole buffer after stores of which the last went through the whole buffer reads that payload. -/
theorem readCov_whole_last (v : View sig' κ sp S e) [∀ e, Nonempty (Val e)] {off : Fin S.rank → ℕ} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst hz; funext j
  have h := View.read_writes_cons_emb v v.junk (Rect.whole S) w L j
  exact h

/-- A load through the rectangle of the one store made reads that store's payload. -/
theorem readCov_same (v : View sig' κ sp S e) [∀ e, Nonempty (Val e)] (r : Rect S) (w : r.shape.Idx → Val e) :
    v.readCov [(⟨r, w⟩ : View.Piece Val S e)] r.toLoadRect = w :=
  funext fun j => View.read_writes_cons_emb v v.junk r w [] j

/-- Reading the rectangle back off an overlay gives what was laid over it. -/
theorem ld_overlay_same (r : Rect S) (X : S.Idx → Val e) (w : r.shape.Idx → Val e) :
    View.ld (r.overlay X w) r = w :=
  funext fun j => r.overlay_emb X w j

end Reads

theorem off2_eq (i : grid0.Coords) : k0_off2 i = k0_off1 i := rfl

set_option maxHeartbeats 2000000 in
theorem run_FFF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : ¬ k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_neg hc2, if_neg hc3]
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    try unfold run_FFF.sl.HR_1
    try unfold run_FFF.sl.HO_1
    try unfold run_FFF.sl.HC_1
    try unfold run_FFF.sl.HO_2
    try unfold run_FFF.sl.v48
    try unfold run_FFF.sl.v49
    try unfold run_FFF.sl.v50
    try unfold run_FFF.sl.v55
    try unfold run_FFF.sl.v56
    try unfold run_FFF.sl.v48_1
    try unfold run_FFF.sl.v49_1
    try unfold run_FFF.sl.v50_1
    try unfold run_FFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TFF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : ¬ k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_neg hc2, if_neg hc3]
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    try unfold run_TFF.sl.HR_1
    try unfold run_TFF.sl.HO_1
    try unfold run_TFF.sl.HC_1
    try unfold run_TFF.sl.HO_2
    try unfold run_TFF.sl.v48
    try unfold run_TFF.sl.v49
    try unfold run_TFF.sl.v50
    try unfold run_TFF.sl.v55
    try unfold run_TFF.sl.v56
    try unfold run_TFF.sl.v48_1
    try unfold run_TFF.sl.v49_1
    try unfold run_TFF.sl.v50_1
    try unfold run_TFF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FTF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_pos hc2, if_neg hc3]
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    try unfold run_FTF.sl.HR_1
    try unfold run_FTF.sl.HO_1
    try unfold run_FTF.sl.HC_1
    try unfold run_FTF.sl.HO_2
    try unfold run_FTF.sl.v48
    try unfold run_FTF.sl.v49
    try unfold run_FTF.sl.v50
    try unfold run_FTF.sl.v55
    try unfold run_FTF.sl.v56
    try unfold run_FTF.sl.v48_1
    try unfold run_FTF.sl.v49_1
    try unfold run_FTF.sl.v50_1
    try unfold run_FTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FFT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : ¬ k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_neg hc2, if_pos hc3]
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    try unfold run_FFT.sl.HR_1
    try unfold run_FFT.sl.HO_1
    try unfold run_FFT.sl.HC_1
    try unfold run_FFT.sl.HO_2
    try unfold run_FFT.sl.v48
    try unfold run_FFT.sl.v49
    try unfold run_FFT.sl.v50
    try unfold run_FFT.sl.v55
    try unfold run_FFT.sl.v56
    try unfold run_FFT.sl.v48_1
    try unfold run_FFT.sl.v49_1
    try unfold run_FFT.sl.v50_1
    try unfold run_FFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_FTT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : ¬ k0_cond1 i = 1#1) (hc2 : k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_neg hc1, if_pos hc2, if_pos hc3]
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    try unfold run_FTT.sl.HR_1
    try unfold run_FTT.sl.HO_1
    try unfold run_FTT.sl.HC_1
    try unfold run_FTT.sl.HO_2
    try unfold run_FTT.sl.v48
    try unfold run_FTT.sl.v49
    try unfold run_FTT.sl.v50
    try unfold run_FTT.sl.v55
    try unfold run_FTT.sl.v56
    try unfold run_FTT.sl.v48_1
    try unfold run_FTT.sl.v49_1
    try unfold run_FTT.sl.v50_1
    try unfold run_FTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TTF (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : k0_cond2 i = 1#1) (hc3 : ¬ k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_pos hc2, if_neg hc3]
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    try unfold run_TTF.sl.HR_1
    try unfold run_TTF.sl.HO_1
    try unfold run_TTF.sl.HC_1
    try unfold run_TTF.sl.HO_2
    try unfold run_TTF.sl.v48
    try unfold run_TTF.sl.v49
    try unfold run_TTF.sl.v50
    try unfold run_TTF.sl.v55
    try unfold run_TTF.sl.v56
    try unfold run_TTF.sl.v48_1
    try unfold run_TTF.sl.v49_1
    try unfold run_TTF.sl.v50_1
    try unfold run_TTF.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TFT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : ¬ k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_neg hc2, if_pos hc3]
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    try unfold run_TFT.sl.HR_1
    try unfold run_TFT.sl.HO_1
    try unfold run_TFT.sl.HC_1
    try unfold run_TFT.sl.HO_2
    try unfold run_TFT.sl.v48
    try unfold run_TFT.sl.v49
    try unfold run_TFT.sl.v50
    try unfold run_TFT.sl.v55
    try unfold run_TFT.sl.v56
    try unfold run_TFT.sl.v48_1
    try unfold run_TFT.sl.v49_1
    try unfold run_TFT.sl.v50_1
    try unfold run_TFT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

set_option maxHeartbeats 2000000 in
theorem run_TTT (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (hc1 : k0_cond1 i = 1#1) (hc2 : k0_cond2 i = 1#1) (hc3 : k0_cond3 i = 1#1)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%fo, %hfo, HO⟩, ⟨%fr, %hfr, HR⟩, ⟨%fc, %hfc, HC⟩, Hk⟩
  obtain rfl := harg2.eq_unread hf0; obtain rfl := harg3.eq_unread hf1; obtain rfl := harg4.eq_unread hfo
  obtain rfl := harg5.eq_unread hfr; obtain rfl := harg6.eq_unread hfc
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    unfold oNext rNext cNext
    simp only [if_pos hc1, if_pos hc2, if_pos hc3]
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  isplitl [HR]
  · iexists _; isplitr
    swap; · iexact HR
    ipureintro
    unfold rNext
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)
  · iexists _; isplitr
    swap; · iexact HC
    ipureintro
    unfold cNext
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    try unfold run_TTT.sl.HR_1
    try unfold run_TTT.sl.HO_1
    try unfold run_TTT.sl.HC_1
    try unfold run_TTT.sl.HO_2
    try unfold run_TTT.sl.v48
    try unfold run_TTT.sl.v49
    try unfold run_TTT.sl.v50
    try unfold run_TTT.sl.v55
    try unfold run_TTT.sl.v56
    try unfold run_TTT.sl.v48_1
    try unfold run_TTT.sl.v49_1
    try unfold run_TTT.sl.v50_1
    try unfold run_TTT.sl.r
    (try simp only [View.readAt_eq_ld, Memref.IsWhole.read_unread, View.ld_unit_zero (S := S4x512x3) hz3, View.ld_unit_zero (S := S4x512) hz2, View.ld_unit_zero (S := S4) hz1, read_writes_whole_last (S := S4) _ _ hz1, read_writes_whole_last (S := S4x512) _ _ hz2, View.readCov_unit_zero (S := S4) _ hz1, View.readCov_unit_zero (S := S4x512) _ hz2, readCov_whole_last (S := S4) _ hz1, readCov_whole_last (S := S4x512) _ hz2, off2_eq, readCov_same]) <;> (try simp only [read_writes_single, Memref.IsWhole.read_unread, View.readAt_eq_ld, ld_overlay_same]) <;> (try rfl)

/-- The body at any point, whichever of its three conditions hold: from the two input blocks and the three carried
    buffers at any contents, it ends with the inputs as they were and the carried buffers at the three maps above. -/
theorem body_run (c : Dev nD) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4 .f32) (harg4 : arg4.IsWhole) (arg5 : Memref sig .tc .vmem S4x512 .f32) (harg5 : arg5.IsWhole)
    (arg6 : Memref sig .tc .vmem S4x8192 .f32) (harg6 : arg6.IsWhole)
    (x0 x1 : Vec F S4x512x3 .f32) (o : Vec F S4 .f32) (r : Vec F S4x512 .f32) (cc : Vec F S4x8192 .f32)
    (E : Set ℕ) (K : PUnit → sProp 𝕄) :
    iprop(owns (c : Thread nD τ) arg2 fullShare x0 ∗ owns (c : Thread nD τ) arg3 fullShare x1 ∗ owns (c : Thread nD τ) arg4 fullShare o
        ∗ owns (c : Thread nD τ) arg5 fullShare r ∗ owns (c : Thread nD τ) arg6 fullShare cc
        ∗ (iprop(owns (c : Thread nD τ) arg2 fullShare x0 ∗ owns (c : Thread nD τ) arg3 fullShare x1
            ∗ owns (c : Thread nD τ) arg4 fullShare (oNext i x0 x1 o r cc)
            ∗ owns (c : Thread nD τ) arg5 fullShare (rNext i x0 x1 r) ∗ owns (c : Thread nD τ) arg6 fullShare (cNext i x0 x1 cc)) -∗ K ⟨⟩))
      ⊢ wp frame (wpE (defs₀ (F := F)) Variants.none c none) E (cc0_kernel i arg2 harg2 arg3 harg3 arg4 harg4 arg5 harg5 arg6 harg6) K := by
  by_cases hc1 : k0_cond1 i = 1#1 <;> by_cases hc2 : k0_cond2 i = 1#1 <;> by_cases hc3 : k0_cond3 i = 1#1
  · exact run_TTT c i arg2 harg2 arg3 harg3 arg4 harg4 arg5 harg5 arg6 harg6 hc1 hc2 hc3 x0 x1 o r cc E K
  · exact run_TTF c i arg2 harg2 arg3 harg3 arg4 harg4 arg5 harg5 arg6 harg6 hc1 hc2 hc3 x0 x1 o r cc E K
  · exact run_TFT c i arg2 harg2 arg3 harg3 arg4 harg4 arg5 harg5 arg6 harg6 hc1 hc2 hc3 x0 x1 o r cc E K
  · exact run_TFF c i arg2 harg2 arg3 harg3 arg4 harg4 arg5 harg5 arg6 harg6 hc1 hc2 hc3 x0 x1 o r cc E K
  · exact run_FTT c i arg2 harg2 arg3 harg3 arg4 harg4 arg5 harg5 arg6 harg6 hc1 hc2 hc3 x0 x1 o r cc E K
  · exact run_FTF c i arg2 harg2 arg3 harg3 arg4 harg4 arg5 harg5 arg6 harg6 hc1 hc2 hc3 x0 x1 o r cc E K
  · exact run_FFT c i arg2 harg2 arg3 harg3 arg4 harg4 arg5 harg5 arg6 harg6 hc1 hc2 hc3 x0 x1 o r cc E K
  · exact run_FFF c i arg2 harg2 arg3 harg3 arg4 harg4 arg5 harg5 arg6 harg6 hc1 hc2 hc3 x0 x1 o r cc E K

end Cert.KernelIdeal.Body

end
-- ==== Proof.Chamfer.lean ====
/-
  The mathematics of a tiled two-sided nearest-neighbour sum, over the extended reals.

  `D b i j` is a matrix of "distances" per batch `b` (rows `i`, columns `j`, both below 8192; the functions are
  indexed by natural numbers so that tiles are plain arithmetic).  The grid has 16 x 16 tiles of 512 x 512 entries,
  visited row-major: tile `(n, m)` is rows `512 n .. 512 n + 511` and columns `512 m .. 512 m + 511`.
  A row accumulator `R` (512 entries per batch) keeps, along a sweep of `m`, the running minimum of each row of the
  current row-tile; a column accumulator `C` (8192 entries per batch) keeps, across the sweeps of `n`, the running
  minimum of every column; the output `O` (one entry per batch) receives `φ` of a row-tile's sum of row minima at
  the end of each sweep of `m`, and `φ` of a column-tile's sum of column minima during the last sweep (`n = 15`).
  `φ` is an additive map (division by a positive constant).  The theorems say that the three accumulators hold
  the closed forms `InvR`, `InvC`, `Oc` after every tile, and that after the last tile the output is
  `φ (Σ_i min_j D b i j) + φ (Σ_j min_i D b i j)`.
-/
import Mathlib.Data.EReal.Inv
import Mathlib.Algebra.BigOperators.Intervals
import Mathlib.Order.Interval.Finset.Nat
import Mathlib.Tactic.Ring
import Mathlib.Tactic.Linarith

open Finset

noncomputable section

namespace Chamfer

variable (D : Fin 4 → ℕ → ℕ → EReal) (φ : EReal → EReal)

/-- The minimum of row `i` over column-tile `m`. -/
def rowTile (b : Fin 4) (i m : ℕ) : EReal := (range 512).inf fun q => D b i (512 * m + q)

/-- The minimum of column `j` over row-tile `n`. -/
def colTile (b : Fin 4) (n j : ℕ) : EReal := (range 512).inf fun p => D b (512 * n + p) j

/-- The row accumulator after tile `(n, m)`: restarted at the first tile of a sweep, else the running minimum. -/
def stepR (n m : ℕ) (R : Fin 4 → ℕ → EReal) : Fin 4 → ℕ → EReal := fun b p =>
  if m = 0 then rowTile D b (512 * n + p) m else min (R b p) (rowTile D b (512 * n + p) m)

/-- The column accumulator after tile `(n, m)`: only the columns of tile `m` change; restarted in the first sweep. -/
def stepC (n m : ℕ) (C : Fin 4 → ℕ → EReal) : Fin 4 → ℕ → EReal := fun b j =>
  if 512 * m ≤ j ∧ j < 512 * m + 512 then
    (if n = 0 then colTile D b n j else min (C b j) (colTile D b n j))
  else C b j

/-- The output after tile `(n, m)`, from the output before it and the two accumulators AFTER the tile. -/
def stepO (n m : ℕ) (O : Fin 4 → EReal) (R' C' : Fin 4 → ℕ → EReal) : Fin 4 → EReal := fun b =>
  let o1 := if n = 0 ∧ m = 0 then (0 : EReal) else O b
  let o2 := if m = 15 then o1 + φ (∑ p ∈ range 512, R' b p) else o1
  if n = 15 then o2 + φ (∑ q ∈ range 512, C' b (512 * m + q)) else o2

/-- After tile `(n, m)` the row accumulator holds each row's minimum over the column-tiles `0 .. m`. -/
def InvR (n m : ℕ) (R : Fin 4 → ℕ → EReal) : Prop :=
  ∀ b, ∀ p < 512, R b p = (range (m + 1)).inf fun m' => rowTile D b (512 * n + p) m'

/-- After tile `(n, m)` the column accumulator holds, for a column of a tile already visited in this sweep, its
    minimum over the row-tiles `0 .. n`; for a later column, over `0 .. n - 1` (nothing is said in the first sweep). -/
def InvC (n m : ℕ) (C : Fin 4 → ℕ → EReal) : Prop :=
  ∀ b, ∀ j < 8192, (j / 512 ≤ m → C b j = (range (n + 1)).inf fun n' => colTile D b n' j)
    ∧ (m < j / 512 → 1 ≤ n → C b j = (range n).inf fun n' => colTile D b n' j)

/-- The sum over row-tile `n` of the rows' minima over all columns. -/
def RS (n : ℕ) (b : Fin 4) : EReal := ∑ p ∈ range 512, (range 16).inf fun m' => rowTile D b (512 * n + p) m'

/-- The sum over column-tile `m` of the columns' minima over all rows. -/
def CS (m : ℕ) (b : Fin 4) : EReal := ∑ q ∈ range 512, (range 16).inf fun n' => colTile D b n' (512 * m + q)

/-- The output after tile `(n, m)` in closed form. -/
def Oc (n m : ℕ) (b : Fin 4) : EReal :=
  ((∑ n' ∈ range n, φ (RS D n' b)) + (if m = 15 then φ (RS D n b) else 0))
    + (if n = 15 then ∑ m' ∈ range (m + 1), φ (CS D m' b) else 0)

variable {D φ}

/-- An infimum over `range (k + 1)` is the infimum over `range k` met with the last term. -/
theorem infRange_succ {α : Type*} [SemilatticeInf α] [OrderTop α] (f : ℕ → α) (k : ℕ) :
    (range (k + 1)).inf f = (range k).inf f ⊓ f k := by
  rw [range_add_one, inf_insert, inf_comm]

/-- An infimum over `range (a + b)` splits into the first `a` indices and the next `b`. -/
theorem infRange_add {α : Type*} [SemilatticeInf α] [OrderTop α] (f : ℕ → α) (a b : ℕ) :
    (range (a + b)).inf f = (range a).inf f ⊓ (range b).inf fun x => f (a + x) := by
  induction b with
  | zero => simp
  | succ b ih =>
    rw [← Nat.add_assoc, infRange_succ _ (a + b), ih, infRange_succ _ b, inf_assoc]

/-- An infimum over `range (512 N)` is the infimum over `N` blocks of the infima over each block of 512. -/
theorem infRange_mul512 {α : Type*} [SemilatticeInf α] [OrderTop α] (f : ℕ → α) (N : ℕ) :
    (range (512 * N)).inf f = (range N).inf fun m => (range 512).inf fun q => f (512 * m + q) := by
  induction N with
  | zero => simp
  | succ N ih => rw [Nat.mul_succ, infRange_add, ih, infRange_succ _ N]

/-- A sum over `range (512 N)` is the sum over `N` blocks of the sums over each block of 512. -/
theorem sumRange_mul512 {β : Type*} [AddCommMonoid β] (g : ℕ → β) (N : ℕ) :
    ∑ i ∈ range (512 * N), g i = ∑ n ∈ range N, ∑ p ∈ range 512, g (512 * n + p) := by
  induction N with
  | zero => simp
  | succ N ih => rw [Nat.mul_succ, sum_range_add, ih, sum_range_succ _ N]

/-- An additive map vanishing at zero commutes with sums over `range N`. -/
theorem map_sumRange (hφ0 : φ 0 = 0) (hφ : ∀ a b, φ (a + b) = φ a + φ b) (f : ℕ → EReal) (N : ℕ) :
    φ (∑ n ∈ range N, f n) = ∑ n ∈ range N, φ (f n) := by
  induction N with
  | zero => simpa using hφ0
  | succ N ih => rw [sum_range_succ, sum_range_succ, hφ, ih]

theorem stepR_inv (n m : ℕ) (R : Fin 4 → ℕ → EReal) (h : m ≠ 0 → InvR D n (m - 1) R) :
    InvR D n m (stepR D n m R) := by
  intro b p hp
  simp only [stepR]
  by_cases hm : m = 0
  · subst hm
    simp
  · obtain ⟨k, rfl⟩ := Nat.exists_eq_add_one_of_ne_zero hm
    have hk := h hm b p hp
    rw [Nat.add_sub_cancel] at hk
    rw [if_neg hm, hk, infRange_succ (fun m' => rowTile D b (512 * n + p) m') (k + 1)]

theorem stepC_inv (n m : ℕ) (hn : n < 16) (hm : m < 16) (C : Fin 4 → ℕ → EReal)
    (h1 : m ≠ 0 → InvC D n (m - 1) C) (h2 : m = 0 → n ≠ 0 → InvC D (n - 1) 15 C) :
    InvC D n m (stepC D n m C) := by
  intro b j hj
  -- before the tile, a column not yet visited in this sweep holds its minimum over the earlier row-tiles
  have hprev : n ≠ 0 → m ≤ j / 512 → C b j = (range n).inf fun n' => colTile D b n' j := by
    intro hn0 hmj
    by_cases hm0 : m = 0
    · have h := (h2 hm0 hn0 b j hj).1 (by omega)
      rwa [Nat.sub_add_cancel (Nat.one_le_iff_ne_zero.mpr hn0)] at h
    · exact (h1 hm0 b j hj).2 (by omega) (Nat.one_le_iff_ne_zero.mpr hn0)
  by_cases hin : 512 * m ≤ j ∧ j < 512 * m + 512
  · have hjm : j / 512 = m := by omega
    simp only [stepC, if_pos hin]
    refine ⟨fun _ => ?_, fun hlt => absurd hlt (by omega)⟩
    by_cases hn0 : n = 0
    · subst hn0
      simp
    · rw [if_neg hn0, hprev hn0 (by omega), infRange_succ (fun n' => colTile D b n' j) n]
  · simp only [stepC, if_neg hin]
    have hjm : j / 512 ≠ m := by omega
    refine ⟨fun hle => ?_, fun hlt hn1 => hprev (by omega) (by omega)⟩
    have hm0 : m ≠ 0 := by omega
    exact (h1 hm0 b j hj).1 (by omega)

theorem stepO_eq (hφ : ∀ a b, φ (a + b) = φ a + φ b) (n m : ℕ) (hn : n < 16) (hm : m < 16)
    (O : Fin 4 → EReal) (R' C' : Fin 4 → ℕ → EReal)
    (h1 : m ≠ 0 → O = Oc D φ n (m - 1)) (h2 : m = 0 → n ≠ 0 → O = Oc D φ (n - 1) 15)
    (hR : InvR D n m R') (hC : InvC D n m C') :
    stepO φ n m O R' C' = Oc D φ n m := by
  funext b
  -- at the end of a sweep the row accumulator sums to the row-tile's sum of full row minima
  have hRS : m = 15 → ∑ p ∈ range 512, R' b p = RS D n b := by
    intro hm15
    unfold RS
    refine sum_congr rfl fun p hp => ?_
    rw [hR b p (mem_range.mp hp), hm15]
  -- in the last sweep the columns of the current tile hold their full column minima
  have hCS : n = 15 → ∑ q ∈ range 512, C' b (512 * m + q) = CS D m b := by
    intro hn15
    unfold CS
    refine sum_congr rfl fun q hq => ?_
    have hq' := mem_range.mp hq
    rw [(hC b (512 * m + q) (by omega)).1 (by omega), hn15]
  have hO1 : m ≠ 0 → O b = Oc D φ n (m - 1) b := fun h => by rw [h1 h]
  have hO2 : m = 0 → n ≠ 0 → O b = Oc D φ (n - 1) 15 b := fun h h' => by rw [h2 h h']
  clear h1 h2 hR hC
  simp only [stepO]
  by_cases hm0 : m = 0
  · subst hm0
    by_cases hn0 : n = 0
    · subst hn0
      simp [Oc]
    · obtain ⟨k, rfl⟩ := Nat.exists_eq_add_one_of_ne_zero hn0
      have hk : ¬ k = 15 := by omega
      have hO := hO2 rfl hn0
      rw [Nat.add_sub_cancel] at hO
      have eA : ∑ n' ∈ range (k + 1), φ (RS D n' b) = ∑ n' ∈ range k, φ (RS D n' b) + φ (RS D k b) :=
        sum_range_succ _ k
      have e0 : ¬ (k + 1 = 0 ∧ (0 : ℕ) = 0) := by omega
      have e1 : ¬ ((0 : ℕ) = 15) := by omega
      rw [if_neg e0, if_neg e1, hO]
      by_cases hk1 : k + 1 = 15
      · rw [if_pos hk1, hCS hk1]
        simp only [Oc, if_neg hk, if_neg e1, if_pos hk1, if_true, eA, add_zero, zero_add, sum_range_one]
      · rw [if_neg hk1]
        simp only [Oc, if_neg hk, if_neg e1, if_neg hk1, if_true, eA, add_zero]
  · obtain ⟨k, rfl⟩ := Nat.exists_eq_add_one_of_ne_zero hm0
    have hk : ¬ k = 15 := by omega
    have hO := hO1 hm0
    rw [Nat.add_sub_cancel] at hO
    have eS : ∑ m' ∈ range (k + 1 + 1), φ (CS D m' b)
        = ∑ m' ∈ range (k + 1), φ (CS D m' b) + φ (CS D (k + 1) b) := sum_range_succ _ (k + 1)
    have e0 : ¬ (n = 0 ∧ k + 1 = 0) := by omega
    rw [if_neg e0, hO]
    by_cases hk1 : k + 1 = 15 <;> by_cases hn15 : n = 15
    · rw [if_pos hk1, if_pos hn15, hRS hk1, hCS hn15]
      simp only [Oc, if_neg hk, if_pos hk1, if_pos hn15, eS, add_zero]
      ac_rfl
    · rw [if_pos hk1, if_neg hn15, hRS hk1]
      simp only [Oc, if_neg hk, if_pos hk1, if_neg hn15, add_zero]
    · rw [if_neg hk1, if_pos hn15, hCS hn15]
      simp only [Oc, if_neg hk, if_neg hk1, if_pos hn15, eS, add_zero]
      ac_rfl
    · rw [if_neg hk1, if_neg hn15]
      simp only [Oc, if_neg hk, if_neg hk1, if_neg hn15, add_zero]

theorem Oc_last (hφ0 : φ 0 = 0) (hφ : ∀ a b, φ (a + b) = φ a + φ b) (b : Fin 4) :
    Oc D φ 15 15 b
      = φ (∑ i ∈ range 8192, (range 8192).inf fun j => D b i j)
        + φ (∑ j ∈ range 8192, (range 8192).inf fun i => D b i j) := by
  -- a full row minimum is the minimum over the 16 column-tiles of the tile minima; likewise for columns
  have hrow : ∀ i, ((range 8192).inf fun j => D b i j) = (range 16).inf fun m' => rowTile D b i m' :=
    fun i => infRange_mul512 (fun j => D b i j) 16
  have hcol : ∀ j, ((range 8192).inf fun i => D b i j) = (range 16).inf fun n' => colTile D b n' j :=
    fun j => infRange_mul512 (fun i => D b i j) 16
  -- the sums over all 8192 rows (columns) are the sums over the 16 tiles of the tile sums
  have hR : ∑ i ∈ range 8192, (range 8192).inf (fun j => D b i j) = ∑ n ∈ range 16, RS D n b := by
    have h := sumRange_mul512 (fun i => (range 8192).inf fun j => D b i j) 16
    rw [show 512 * 16 = 8192 from rfl] at h
    rw [h]
    refine sum_congr rfl fun n _ => ?_
    unfold RS
    exact sum_congr rfl fun p _ => hrow _
  have hC : ∑ j ∈ range 8192, (range 8192).inf (fun i => D b i j) = ∑ m ∈ range 16, CS D m b := by
    have h := sumRange_mul512 (fun j => (range 8192).inf fun i => D b i j) 16
    rw [show 512 * 16 = 8192 from rfl] at h
    rw [h]
    refine sum_congr rfl fun m _ => ?_
    unfold CS
    exact sum_congr rfl fun q _ => hcol _
  rw [hR, hC, map_sumRange hφ0 hφ, map_sumRange hφ0 hφ]
  unfold Oc
  rw [if_pos rfl, if_pos rfl, sum_range_succ (fun n' => φ (RS D n' b)) 15]

end Chamfer

end
-- ==== Proof.Spec.lean ====
/-
  The function both programs compute, over the extended reals: for two clouds of 8192 points of ℝ³ per batch (arrays
  of shape [4, 8192, 3]), the squared distance of point `i` of the first to point `j` of the second written as
  |x_i|² + |y_j|² − 2·⟨x_i, y_j⟩, each point's distance to its nearest neighbour in the other cloud, and the two means
  of those nearest-neighbour distances, added.
-/
import Idealize.ShloMosaic.PureOps.Ideal
import Idealize.ShloMosaic.Lib.ValueIdx

noncomputable section

namespace Cert.Spec

open Idealize.ShloMosaic Idealize.ShloMosaic.ValueIdx Finset

/-- The shape of a cloud array. -/
abbrev Cloud : Shape := ⟨3, ![4, 8192, 3]⟩

/-- |x_i|²: the sum over the three coordinates of the squares. -/
def nrm (x : Cloud.Idx → EReal) (b : Fin 4) (i : Fin 8192) : EReal := ∑ d : Fin 3, x (ix3 b i d) * x (ix3 b i d)

/-- ⟨x_i, y_j⟩. -/
def inr (x y : Cloud.Idx → EReal) (b : Fin 4) (i j : Fin 8192) : EReal := ∑ d : Fin 3, x (ix3 b i d) * y (ix3 b j d)

/-- The constant 2 as both programs spell it. -/
def two : EReal := Ideal.ofBits .f32 0x40000000#32

/-- The squared distance, in the form both programs compute it. -/
def dist (x y : Cloud.Idx → EReal) (b : Fin 4) (i j : Fin 8192) : EReal :=
  (nrm x b i + nrm y b j) - two * inr x y b i j

/-- The same indexed by natural numbers (anything outside the array is +∞ and is never read). -/
def distN (x y : Cloud.Idx → EReal) : Fin 4 → ℕ → ℕ → EReal := fun b i j =>
  if h : i < 8192 ∧ j < 8192 then dist x y b ⟨i, h.1⟩ ⟨j, h.2⟩ else ⊤

/-- Division by the number of points, 8192, as both programs spell it. -/
def mean (a : EReal) : EReal := Ideal.div a (Ideal.ofBits .f32 0x46000000#32)

/-- The result: the mean over `i` of min_j dist plus the mean over `j` of min_i dist. -/
def G (x y : Cloud.Idx → EReal) : (⟨1, ![4]⟩ : Shape).Idx → EReal := fun b =>
  mean (∑ i ∈ range 8192, (range 8192).inf fun j => distN x y (b 0) i j)
    + mean (∑ j ∈ range 8192, (range 8192).inf fun i => distN x y (b 0) i j)

end Cert.Spec

end
-- ==== Proof.MeanAdd.lean ====
/-
  Division by the number of points, 8192, is multiplication by the real 1/8192: it is additive on the extended
  reals (with no finiteness assumption) and sends 0 to 0.  Also: infima and sums over `Fin k` of a function of the
  underlying natural number are the infima and sums over `range k`.
-/
import proofs.«169811_j3813930959465_1_alg».proof.Proof.Spec

noncomputable section

namespace Cert.MeanAdd

open Idealize.ShloMosaic Finset

/-- The pattern `0x46000000` denotes the real `8192 = 2 ^ 13`. -/
theorem ofBits_8192 : Ideal.ofBits .f32 0x46000000#32 = ((8192 : ℝ) : EReal) := by
  simp [Ideal.ofBits, Ideal.ieee, -EReal.coe_mul]; norm_num

/-- The mean is multiplication by the real `1 / 8192`. -/
theorem mean_eq (a : EReal) : Cert.Spec.mean a = a * ((1 / 8192 : ℝ) : EReal) := by
  rw [Cert.Spec.mean, ofBits_8192, Ideal.div_coe (by norm_num)]

/-- Multiplication by a nonnegative finite constant distributes over every sum of extended reals. -/
theorem mean_add (a b : EReal) : Cert.Spec.mean (a + b) = Cert.Spec.mean a + Cert.Spec.mean b := by
  rw [mean_eq, mean_eq, mean_eq]
  exact EReal.right_distrib_of_nonneg_of_ne_top (EReal.coe_nonneg.mpr (by norm_num)) (EReal.coe_ne_top _) a b

theorem mean_zero : Cert.Spec.mean 0 = 0 := by
  rw [mean_eq, zero_mul]

/-- An infimum over `Fin k` of a function of the underlying number is the infimum over `range k`. -/
theorem inf_univ_fin (k : ℕ) (f : ℕ → EReal) :
    (Finset.univ : Finset (Fin k)).inf (fun q => f q.val) = (Finset.range k).inf f := by
  apply le_antisymm
  · exact Finset.le_inf fun i hi =>
      Finset.inf_le (f := fun q : Fin k => f q.val) (Finset.mem_univ ⟨i, Finset.mem_range.mp hi⟩)
  · exact Finset.le_inf fun q _ => Finset.inf_le (Finset.mem_range.mpr q.isLt)

/-- A sum over `Fin k` of a function of the underlying number is the sum over `range k`. -/
theorem sum_univ_fin (k : ℕ) (f : ℕ → EReal) : (∑ q : Fin k, f q.val) = ∑ q ∈ Finset.range k, f q :=
  Fin.sum_univ_eq_sum_range f k

/-- The pattern `0x40000000` denotes the real `2`. -/
theorem two_eq : Cert.Spec.two = ((2 : ℝ) : EReal) := by
  unfold Cert.Spec.two
  simp [Ideal.ofBits, Ideal.ieee, -EReal.coe_mul]; norm_num

end Cert.MeanAdd

end
-- ==== Proof.LibRank3.lean ====
/-
  Rank-3 arrays with a unit axis, read at an index given by coordinates.

  Mean-centring a stack of matrices with kept dimensions, stacking columns into a last axis, and spreading a
  per-row number over a row all print as the same few layout operations: a cast that adds or drops a unit axis
  (the row-major position does not change), and a broadcast along a unit axis (the coordinate on that axis is
  forgotten). Each lemma reads one of them at `(i, j, k)`.
-/
import Idealize.ShloMosaic.Lib.Pipeline.Value
import Idealize.ShloMosaic.Lib.ValueIdx

namespace Cert.LibRank3

open Idealize.ShloMosaic Idealize.ShloMosaic.ValueIdx

variable {α : Type}

/-- `[a, b, 1]` broadcast along the last axis to `[a, b, c]`: at `(i, j, k)` the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, c]` broadcast along the middle axis to `[a, b, c]`: at `(i, j, k)` the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[a, 1, 1]` broadcast along the last axis to `[a, 1, c]`: at `(i, 0, k)` the operand at `(i, 0, 0)`. -/
theorem broadcastTo_a11_a1c_apply {a c : ℕ} (v : (⟨3, ![a, 1, 1]⟩ : Shape).Idx → α)
    (h : (⟨3, ![a, 1, 1]⟩ : Shape).Broadcasts ⟨3, ![a, 1, c]⟩) (i : Fin a) (u : Fin 1) (k : Fin c) :
    broadcastTo ⟨3, ![a, 1, c]⟩ v h (ix3 i u k) = v (ix3 i (0 : Fin 1) (0 : Fin 1)) := by
  refine broadcastTo_apply v h (ix3 i u k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- `[a, b]` cast to `[a, b, 1]`: at `(i, j, 0)` the operand at `(i, j)`. -/
theorem shapeCast_ab_ab1_apply {a b : ℕ} (v : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ v h (ix3 i j u) = v (ix2 i j) :=
  shapeCast_apply v h _ _ (by
    have hu : u.val = 0 := by omega
    rw [Shape.rowMajor_val_two, Shape.rowMajor_val_three]
    show i.val * b + j.val = (i.val * b + j.val) * 1 + u.val
    omega)

/-- `[a, b, 1]` cast to `[a, b]`: at `(i, j)` the operand at `(i, j, 0)`. -/
theorem shapeCast_ab1_ab_apply {a b : ℕ} (v : (⟨3, ![a, b, 1]⟩ : Shape).Idx → α)
    (h : (⟨3, ![a, b, 1]⟩ : Shape).ShapeCasts ⟨2, ![a, b]⟩) (i : Fin a) (j : Fin b) :
    shapeCast ⟨2, ![a, b]⟩ v h (ix2 i j) = v (ix3 i j (0 : Fin 1)) :=
  shapeCast_apply v h _ _ (by
    rw [Shape.rowMajor_val_two, Shape.rowMajor_val_three]
    show (i.val * b + j.val) * 1 + 0 = i.val * b + j.val
    omega)

/-- `[a, c]` cast to `[a, 1, c]`: at `(i, 0, k)` the operand at `(i, k)`. -/
theorem shapeCast_ac_a1c_apply {a c : ℕ} (v : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ v h (ix3 i u k) = v (ix2 i k) :=
  shapeCast_apply v h _ _ (by
    have hu : u.val = 0 := by omega
    rw [Shape.rowMajor_val_two, Shape.rowMajor_val_three]
    show i.val * c + k.val = (i.val * 1 + u.val) * c + k.val
    rw [hu, Nat.mul_one, Nat.add_zero])

/-- `[a, 1]` cast to `[a, 1, 1]`: at `(i, 0, 0)` the operand at `(i, 0)`. -/
theorem shapeCast_a1_a11_apply {a : ℕ} (v : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ v h (ix3 i u u') = v (ix2 i (0 : Fin 1)) :=
  shapeCast_apply v h _ _ (by
    have hu : u.val = 0 := by omega
    have hu' : u'.val = 0 := by omega
    rw [Shape.rowMajor_val_two, Shape.rowMajor_val_three]
    show i.val * 1 + 0 = (i.val * 1 + u.val) * 1 + u'.val
    omega)

end Cert.LibRank3
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.PayIdx.lean ====
/-
  The kernel's arithmetic over the extended reals, read at an index.

  One grid step of the Chamfer-distance kernel holds a block of 512 points of each cloud for four batches. Its
  pure values are: the 512 x 512 tile of squared distances |x_p|² + |y_q|² − 2·⟨x_p, y_q⟩; the minimum of each row
  of that tile, merged with the running row minimum (taken alone on the first column block); the minimum of each
  column, merged with the running column minimum (taken alone on the first row block); and the accumulated sum of
  a block of minima divided by 8192. Each lemma below reads one of these values at coordinates.
-/
import proofs.«169811_j3813930959465_1_alg».proof.Proof.Gen.KernelIdeal.Skeleton
import proofs.«169811_j3813930959465_1_alg».proof.Proof.Spec
import proofs.«169811_j3813930959465_1_alg».proof.Proof.LibRank3
import proofs.«169811_j3813930959465_1_alg».proof.Proof.LibDotSingle
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

/-! ## Sums and minima along one axis -/

/-- The sum over the last axis of a 4 x 512 x 3 array, at (b, p): the sum of its three entries there. -/
theorem sum_axis2_apply (src : FVec Ideal S4x512x3 .f32) (b : Fin 4) (p : Fin 512) :
    multiReduction (F := Ideal) .add [2] S4x512 src 0x00000000#32 reduces_S4x512x3_S4x512 (.inl rfl) rfl (ix2 b p)
      = ∑ d : Fin 3, src (ix3 b p d) := by
  refine (Ideal.multiReduction_add_single src 0x00000000#32 reduces_S4x512x3_S4x512 (.inl rfl) rfl (ix2 b p)).trans ?_
  refine Finset.sum_congr rfl fun d _ => congrArg src (funext fun a => Fin.ext ?_)
  match a with
  | ⟨0, _⟩ => rfl
  | ⟨1, _⟩ => rfl
  | ⟨2, _⟩ => rfl

/-- The sum over the last axis of a 4 x 512 array, at b: the sum of the 512 entries of row b. -/
theorem sum_axis1_apply (src : FVec Ideal S4x512 .f32) (b : Fin 4) :
    multiReduction (F := Ideal) .add [1] S4 src 0x00000000#32 reduces_S4x512_S4 (.inl rfl) rfl (ix1 b)
      = ∑ p : Fin 512, src (ix2 b p) := by
  refine (Ideal.multiReduction_add_single src 0x00000000#32 reduces_S4x512_S4 (.inl rfl) rfl (ix1 b)).trans ?_
  refine Finset.sum_congr rfl fun p _ => congrArg src (funext fun a => Fin.ext ?_)
  match a with
  | ⟨0, _⟩ => rfl
  | ⟨1, _⟩ => rfl

/-- The word 0x7F800000 is +∞, the top of the extended reals. -/
theorem ofBits_inf_f32 : Ideal.ofBits .f32 0x7F800000#32 = ⊤ := by simp [Ideal.ofBits, Ideal.ieee]

/-- A fold of `min` from ⊤ is the infimum. -/
theorem fold_min_top {ι : Type} (s : Finset ι) (f : ι → EReal) : s.fold min ⊤ f = s.inf f := rfl

/-- A minimum over one axis from +∞, in terms of the axis's coordinates: the infimum over them. -/
theorem min_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction (F := Ideal) .minimumf [a] t src 0x7F800000#32 h hφ hacc j
      = (Finset.univ : Finset (Fin (s.size a))).inf (src ∘ h.lift j) := by
  refine (multiReduction_minimumf_eq_fold (F := Ideal) src 0x7F800000#32 h hφ hacc j).trans ?_
  refine (h.fold_filter_drop_single _ _ src j).trans ?_
  show Finset.fold min (Ideal.ofBits .f32 0x7F800000#32) (src ∘ h.lift j) Finset.univ = _
  rw [ofBits_inf_f32]
  exact fold_min_top _ _

/-- The minimum over the last axis of a 4 x 512 x 512 array, at (b, p): the infimum of row (b, p). -/
theorem min_axis2_apply (src : FVec Ideal S4x512x512 .f32) (b : Fin 4) (p : Fin 512) :
    multiReduction (F := Ideal) .minimumf [2] S4x512 src 0x7F800000#32 reduces_S4x512x512_S4x512 (.inl rfl) rfl (ix2 b p)
      = (Finset.univ : Finset (Fin 512)).inf fun q => src (ix3 b p q) := by
  refine (min_single src reduces_S4x512x512_S4x512 (.inl rfl) rfl (ix2 b p)).trans ?_
  refine Finset.inf_congr rfl fun q _ => congrArg src (funext fun a => Fin.ext ?_)
  match a with
  | ⟨0, _⟩ => rfl
  | ⟨1, _⟩ => rfl
  | ⟨2, _⟩ => rfl

/-- The minimum over the middle axis of a 4 x 512 x 512 array, at (b, q): the infimum of column (b, q). -/
theorem min_axis1_apply (src : FVec Ideal S4x512x512 .f32) (b : Fin 4) (q : Fin 512) :
    multiReduction (F := Ideal) .minimumf [1] S4x512 src 0x7F800000#32 reduces_S4x512x512_S4x512_2 (.inl rfl) rfl (ix2 b q)
      = (Finset.univ : Finset (Fin 512)).inf fun p => src (ix3 b p q) := by
  refine (min_single src reduces_S4x512x512_S4x512_2 (.inl rfl) rfl (ix2 b q)).trans ?_
  refine Finset.inf_congr rfl fun p _ => congrArg src (funext fun a => Fin.ext ?_)
  match a with
  | ⟨0, _⟩ => rfl
  | ⟨1, _⟩ => rfl
  | ⟨2, _⟩ => rfl

/-- "Grid coordinate k is 0" as a one-bit word, for k below 16. -/
theorem cmpi_coord_zero : ∀ k : Fin 16, Scalar.cmpi .eq (BitVec.ofNat 32 k.val) 0#32 = if k.val = 0 then 1#1 else 0#1 := by
  decide

/-- A select on "grid coordinate k is 0" is the `if`. -/
theorem select_coord_zero {α : Type} (k : Fin 16) (A B : α) :
    Scalar.select (Scalar.cmpi .eq (BitVec.ofNat 32 k.val) 0#32) A B = if k.val = 0 then A else B := by
  rw [cmpi_coord_zero k]
  split
  · exact select_one A B
  · exact select_zero A B

/-! ## The batched product of the two blocks -/

/-- The left operand's index of the product, at result (b, p, q) and contraction position k, is (b, p, k) ... -/
theorem lhs_0 (i : S4x512x512.Idx) (k : dot_S4x512x3_S4x512x3_S4x512x512_2_2_1_1_0_0.contr.Idx) : (dot_S4x512x3_S4x512x3_S4x512x512_2_2_1_1_0_0.lhsIdx i k 0).val = (i 0).val := by
  unfold DotDims.lhsIdx
  rw [dif_pos (show (0 : Fin S4x512x3.rank) ∈ dot_S4x512x3_S4x512x3_S4x512x512_2_2_1_1_0_0.lhsBatch by decide)]
  rfl
theorem lhs_1 (i : S4x512x512.Idx) (k : dot_S4x512x3_S4x512x3_S4x512x512_2_2_1_1_0_0.contr.Idx) : (dot_S4x512x3_S4x512x3_S4x512x512_2_2_1_1_0_0.lhsIdx i k 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
theorem lhs_2 (i : S4x512x512.Idx) (k : dot_S4x512x3_S4x512x3_S4x512x512_2_2_1_1_0_0.contr.Idx) : (dot_S4x512x3_S4x512x3_S4x512x512_2_2_1_1_0_0.lhsIdx i k 2).val = (k ⟨0, by decide⟩).val :=
  dot_S4x512x3_S4x512x3_S4x512x512_2_2_1_1_0_0.lhsIdx_val_of_single rfl i k
/-- ... and the right operand's is (b, q, k). -/
theorem rhs_0 (i : S4x512x512.Idx) (k : dot_S4x512x3_S4x512x3_S4x512x512_2_2_1_1_0_0.contr.Idx) : (dot_S4x512x3_S4x512x3_S4x512x512_2_2_1_1_0_0.rhsIdx i k 0).val = (i 0).val := by
  unfold DotDims.rhsIdx
  rw [dif_pos (show (0 : Fin S4x512x3.rank) ∈ dot_S4x512x3_S4x512x3_S4x512x512_2_2_1_1_0_0.rhsBatch by decide)]
  rfl
theorem rhs_1 (i : S4x512x512.Idx) (k : dot_S4x512x3_S4x512x3_S4x512x512_2_2_1_1_0_0.contr.Idx) : (dot_S4x512x3_S4x512x3_S4x512x512_2_2_1_1_0_0.rhsIdx i k 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
theorem rhs_2 (i : S4x512x512.Idx) (k : dot_S4x512x3_S4x512x3_S4x512x512_2_2_1_1_0_0.contr.Idx) : (dot_S4x512x3_S4x512x3_S4x512x512_2_2_1_1_0_0.rhsIdx i k 2).val = (k ⟨0, by decide⟩).val :=
  dot_S4x512x3_S4x512x3_S4x512x512_2_2_1_1_0_0.rhsIdx_val_of_single rfl i k

/-- The batched product of two 4 x 512 x 3 blocks over their last axis, into a zero accumulator, at (b, p, q): the
    inner product of point p of the first block with point q of the second. -/
theorem dot_apply (x y : FVec Ideal S4x512x3 .f32) (b : Fin 4) (p q : Fin 512) :
    matmul dot_S4x512x3_S4x512x3_S4x512x512_2_2_1_1_0_0 (some .fp32) x y (constant (F := Ideal) S4x512x512 .f32 0x00000000#32) (ix3 b p q)
      = ∑ d : Fin 3, x (ix3 b p d) * y (ix3 b q d) := by
  refine Cert.LibDotSingle.matmul_zero_apply dot_S4x512x3_S4x512x3_S4x512x512_2_2_1_1_0_0 3 rfl rfl (some .fp32) x y (ix3 b p q)
    (fun d => ix3 b p d) (fun d => ix3 b q d) (fun k => ?_) (fun k => ?_)
  · have hk := contrEquiv1_symm_val dot_S4x512x3_S4x512x3_S4x512x512_2_2_1_1_0_0 3 rfl rfl k
    refine funext fun a => Fin.ext ?_
    match a with
    | ⟨0, _⟩ => exact lhs_0 _ _
    | ⟨1, _⟩ => exact lhs_1 _ _
    | ⟨2, _⟩ => exact (lhs_2 _ _).trans hk
  · have hk := contrEquiv1_symm_val dot_S4x512x3_S4x512x3_S4x512x512_2_2_1_1_0_0 3 rfl rfl k
    refine funext fun a => Fin.ext ?_
    match a with
    | ⟨0, _⟩ => exact rhs_0 _ _
    | ⟨1, _⟩ => exact rhs_1 _ _
    | ⟨2, _⟩ => exact (rhs_2 _ _).trans hk

/-! ## The payloads at an index -/

/-- The tile of squared distances at (b, p, q): |x_p|² + |y_q|² − 2·⟨x_p, y_q⟩. -/
theorem pay4_apply (x0 x1 : Vec Ideal S4x512x3 .f32) (b : Fin 4) (p q : Fin 512) :
    k0_pay4 (F := Ideal) x0 x1 (ix3 b p q)
      = ((∑ d : Fin 3, x0 (ix3 b p d) * x0 (ix3 b p d)) + (∑ d : Fin 3, x1 (ix3 b q d) * x1 (ix3 b q d)))
        - Cert.Spec.two * (∑ d : Fin 3, x0 (ix3 b p d) * x1 (ix3 b q d)) := by
  unfold k0_pay4
  simp only [shapeCast_self, subf_apply, addf_apply, mulf_apply, broadcast_apply]
  refine congrArg₂ (· - ·) (congrArg₂ (· + ·) ?_ ?_) (congrArg (Cert.Spec.two * ·) ?_)
  · refine (Cert.LibRank3.broadcastTo_ab1_abc_apply _ _ b p q).trans ?_
    refine (Cert.LibRank3.shapeCast_ab_ab1_apply _ _ b p 0).trans ?_
    exact sum_axis2_apply _ b p
  · refine (Cert.LibRank3.broadcastTo_a1c_abc_apply _ _ b p q).trans ?_
    refine (Cert.LibRank3.shapeCast_ac_a1c_apply _ _ b 0 q).trans ?_
    exact sum_axis2_apply _ b q
  · exact dot_apply x0 x1 b p q

/-- The running row minimum at (b, p): the minimum of row (b, p) of the tile, alone on the first column block and
    merged with the value held before otherwise. -/
theorem pay5_apply (i : grid0.Coords) (x0 x1 : Vec Ideal S4x512x3 .f32) (r : Vec Ideal S4x512 .f32) (b : Fin 4) (p : Fin 512) :
    k0_pay5 (F := Ideal) i x0 x1 r (ix2 b p)
      = if (i 1).val = 0 then (Finset.univ : Finset (Fin 512)).inf fun q => k0_pay4 (F := Ideal) x0 x1 (ix3 b p q)
        else min (r (ix2 b p)) ((Finset.univ : Finset (Fin 512)).inf fun q => k0_pay4 (F := Ideal) x0 x1 (ix3 b p q)) := by
  unfold k0_pay5
  simp only [shapeCast_self]
  refine (congrFun (select_coord_zero (i 1) _ _) (ix2 b p)).trans ?_
  by_cases h0 : (i 1).val = 0
  · rw [if_pos h0, if_pos h0]
    exact min_axis2_apply _ b p
  · rw [if_neg h0, if_neg h0]
    exact congrArg (min (r (ix2 b p))) (min_axis2_apply _ b p)

/-- The running column minimum at (b, q): the minimum of column (b, q) of a tile, alone on the first row block and
    merged with the value held before otherwise. -/
theorem pay1_apply (i : grid0.Coords) (v21 : FVec Ideal S4x512x512 .f32) (v37 : Vec Ideal S4x512 .f32) (b : Fin 4) (q : Fin 512) :
    k0_pay1 (F := Ideal) (BitVec.ofNat 32 (i 0).val) v21 v37 (ix2 b q)
      = if (i 0).val = 0 then (Finset.univ : Finset (Fin 512)).inf fun p => v21 (ix3 b p q)
        else min (v37 (ix2 b q)) ((Finset.univ : Finset (Fin 512)).inf fun p => v21 (ix3 b p q)) := by
  unfold k0_pay1
  simp only [shapeCast_self]
  refine (congrFun (select_coord_zero (i 0) _ _) (ix2 b q)).trans ?_
  by_cases h0 : (i 0).val = 0
  · rw [if_pos h0, if_pos h0]
    exact min_axis1_apply _ b q
  · rw [if_neg h0, if_neg h0]
    exact congrArg (min (v37 (ix2 b q))) (min_axis1_apply _ b q)

/-- The accumulated mean at b: the value held before plus the sum of row b of the block of minima, divided by 8192. -/
theorem pay6_apply (v48 : Vec Ideal S4x512 .f32) (v50 : Vec Ideal S4 .f32) (b : Fin 4) :
    k0_pay6 (F := Ideal) v48 v50 (ix1 b) = v50 (ix1 b) + Cert.Spec.mean (∑ p : Fin 512, v48 (ix2 b p)) := by
  unfold k0_pay6
  simp only [shapeCast_self]
  exact congrArg (fun s => v50 (ix1 b) + Cert.Spec.mean s) (sum_axis1_apply v48 b)

/-- The same for the other cloud's block of minima. -/
theorem pay2_apply (v49 : Vec Ideal S4x512 .f32) (v50 : Vec Ideal S4 .f32) (b : Fin 4) :
    k0_pay2 (F := Ideal) v49 v50 (ix1 b) = v50 (ix1 b) + Cert.Spec.mean (∑ p : Fin 512, v49 (ix2 b p)) := by
  unfold k0_pay2
  simp only [shapeCast_self]
  exact congrArg (fun s => v50 (ix1 b) + Cert.Spec.mean s) (sum_axis1_apply v49 b)

/-- The initial accumulator is zero. -/
theorem pay3_apply (b : Fin 4) : k0_pay3 (F := Ideal) (ix1 b) = 0 :=
  Ideal.ofBits_zero_f32

end Cert.KernelIdeal.PayIdx

end
-- ==== Proof.Link.lean ====
/-
  From the kernel's one-point maps to the mathematics of the tiles.

  At grid point (n, m) the two input blocks are rows 512 n .. 512 n + 511 of the first cloud and rows
  512 m .. 512 m + 511 of the second. Reading the buffers as functions of natural numbers, the tile of squared
  distances the point computes is the block (n, m) of the table of distances, and the three maps the point applies to
  the row accumulator, the column accumulator and the output are the three steps of the tiled nearest-neighbour sum.
-/
import proofs.«169811_j3813930959465_1_alg».proof.Proof.BodyIdeal
import proofs.«169811_j3813930959465_1_alg».proof.Proof.PayIdx
import proofs.«169811_j3813930959465_1_alg».proof.Proof.Chamfer
import proofs.«169811_j3813930959465_1_alg».proof.Proof.MeanAdd
import proofs.«169811_j3813930959465_1_alg».proof.Proof.Spec

noncomputable section

namespace Cert.KernelIdeal.Link

open Cert.KernelIdeal Cert.KernelIdeal.Gen Idealize.ShloMosaic Idealize.ShloMosaic.ValueIdx

/-- A 4 x k array as a function of the batch and a natural number (0 outside the array). -/
def cols {k : ℕ} (R : (⟨2, ![4, k]⟩ : Shape).Idx → EReal) : Fin 4 → ℕ → EReal :=
  fun b p => if h : p < k then R (ix2 b ⟨p, h⟩) else 0

/-- A 4-vector as a function of the batch. -/
def vec4 (o : (⟨1, ![4]⟩ : Shape).Idx → EReal) : Fin 4 → EReal := fun b => o (ix1 b)

theorem cols_lt {k : ℕ} (R : (⟨2, ![4, k]⟩ : Shape).Idx → EReal) (b : Fin 4) (p : ℕ) (hp : p < k) :
    cols R b p = R (ix2 b ⟨p, hp⟩) := dif_pos hp

theorem cols_val {k : ℕ} (R : (⟨2, ![4, k]⟩ : Shape).Idx → EReal) (b : Fin 4) (p : Fin k) :
    cols R b p.val = R (ix2 b p) := dif_pos p.isLt

/-! ## The tile is a block of the table of distances

Throughout: the point is (n, m) (`hi0`, `hi1`), and the two input blocks are rows 512 n .. of the first cloud and rows
512 m .. of the second (`hx0`, `hx1`). -/

/-- The tile at (b, p, q) is the table of distances at row 512 n + p and column 512 m + q. -/
theorem tile_apply (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (b : Fin 4) (p q : Fin 512) :
    k0_pay4 (F := Ideal) x0 x1 (ix3 b p q) = Cert.Spec.distN P0 P1 b (512 * n + p.val) (512 * m + q.val) := by
  have hp : 512 * n + p.val < 8192 := by omega
  have hq : 512 * m + q.val < 8192 := by omega
  rw [PayIdx.pay4_apply, Cert.Spec.distN, dif_pos ⟨hp, hq⟩]
  unfold Cert.Spec.dist Cert.Spec.nrm Cert.Spec.inr
  simp only [hx0, hx1]

/-- The minimum of row (b, p) of the tile is the minimum of row 512 n + p of the table over column tile m. -/
theorem tile_row_inf (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (b : Fin 4) (p : Fin 512) :
    ((Finset.univ : Finset (Fin 512)).inf fun q => k0_pay4 (F := Ideal) x0 x1 (ix3 b p q))
      = Chamfer.rowTile (Cert.Spec.distN P0 P1) b (512 * n + p.val) m := by
  unfold Chamfer.rowTile
  rw [← Cert.MeanAdd.inf_univ_fin 512 (fun q => Cert.Spec.distN P0 P1 b (512 * n + p.val) (512 * m + q))]
  exact Finset.inf_congr rfl fun q _ => tile_apply P0 P1 i n m hn hm hi0 hi1 x0 x1 hx0 hx1 b p q

/-- The minimum of column (b, q) of the tile is the minimum of column 512 m + q of the table over row tile n. -/
theorem tile_col_inf (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (b : Fin 4) (q : Fin 512) :
    ((Finset.univ : Finset (Fin 512)).inf fun p => k0_pay4 (F := Ideal) x0 x1 (ix3 b p q))
      = Chamfer.colTile (Cert.Spec.distN P0 P1) b n (512 * m + q.val) := by
  unfold Chamfer.colTile
  rw [← Cert.MeanAdd.inf_univ_fin 512 (fun p => Cert.Spec.distN P0 P1 b (512 * n + p) (512 * m + q.val))]
  exact Finset.inf_congr rfl fun p _ => tile_apply P0 P1 i n m hn hm hi0 hi1 x0 x1 hx0 hx1 b p q

/-! ## The row accumulator -/

/-- The stored row accumulator is the row step of the tiled sum. -/
theorem pay5_cols (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (R : Vec Ideal S4x512 .f32) (b : Fin 4) (p : ℕ) (hp : p < 512) :
    cols (k0_pay5 (F := Ideal) i x0 x1 R) b p = Chamfer.stepR (Cert.Spec.distN P0 P1) n m (cols R) b p := by
  rw [cols_lt _ b p hp, PayIdx.pay5_apply, tile_row_inf P0 P1 i n m hn hm hi0 hi1 x0 x1 hx0 hx1 b ⟨p, hp⟩, hi1]
  unfold Chamfer.stepR
  rw [cols_lt R b p hp]

/-- The row accumulator after the point is the row step of the tiled sum. -/
theorem rNext_cols (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (R : Vec Ideal S4x512 .f32) (b : Fin 4) (p : ℕ) (hp : p < 512) :
    cols (Body.rNext i x0 x1 R) b p = Chamfer.stepR (Cert.Spec.distN P0 P1) n m (cols R) b p :=
  pay5_cols P0 P1 i n m hn hm hi0 hi1 x0 x1 hx0 hx1 R b p hp

/-! ## The column accumulator -/

/-- A 4 x 512 window of a 4 x 8192 array at columns 512 m .., laid over the array: inside the window the payload ... -/
theorem overlay_window_in (off : Fin 2 → ℕ) (inb : ∀ a, off a + S4x512.size a ≤ S4x8192.size a) (m : ℕ) (hm : m < 16)
    (hoff : off = ![0, 512 * m]) (C : Vec Ideal S4x8192 .f32) (G : Vec Ideal S4x512 .f32) (b : Fin 4) (q : Fin 512) :
    (Rect.unit (s := S4x8192) off S4x512.size inb).overlay C G (ix2 b ⟨512 * m + q.val, by omega⟩) = G (ix2 b q) := by
  subst hoff
  have e : (ix2 b ⟨512 * m + q.val, by omega⟩ : S4x8192.Idx)
      = (Rect.unit (s := S4x8192) ![0, 512 * m] S4x512.size inb).emb (ix2 b q) := by
    funext a
    apply Fin.ext
    match a with
    | ⟨0, _⟩ => show b.val = 0 + 1 * b.val; omega
    | ⟨1, _⟩ => show 512 * m + q.val = 512 * m + 1 * q.val; omega
  rw [e]
  exact Rect.overlay_emb (Rect.unit (s := S4x8192) ![0, 512 * m] S4x512.size inb) C G (ix2 b q)

/-- ... and outside it the array. -/
theorem overlay_window_out (off : Fin 2 → ℕ) (inb : ∀ a, off a + S4x512.size a ≤ S4x8192.size a) (m : ℕ)
    (hoff : off = ![0, 512 * m]) (C : Vec Ideal S4x8192 .f32) (G : Vec Ideal S4x512 .f32) (b : Fin 4) (j : ℕ) (hj : j < 8192)
    (hout : ¬(512 * m ≤ j ∧ j < 512 * m + 512)) :
    (Rect.unit (s := S4x8192) off S4x512.size inb).overlay C G (ix2 b ⟨j, hj⟩) = C (ix2 b ⟨j, hj⟩) := by
  subst hoff
  refine Rect.overlay_of_not_mem (Rect.unit (s := S4x8192) ![0, 512 * m] S4x512.size inb) C G fun hmem => hout ?_
  have h1 := (Rect.mem_set_unit.mp hmem) 1
  exact ⟨h1.1, h1.2⟩

/-- The window read off the array: column q of the window is column 512 m + q. -/
theorem ld_window (off : Fin 2 → ℕ) (inb : ∀ a, off a + S4x512.size a ≤ S4x8192.size a) (m : ℕ) (hm : m < 16)
    (hoff : off = ![0, 512 * m]) (C : Vec Ideal S4x8192 .f32) (b : Fin 4) (q : Fin 512) :
    View.ld C (Rect.unit (s := S4x8192) off S4x512.size inb) (ix2 b q) = C (ix2 b ⟨512 * m + q.val, by omega⟩) := by
  subst hoff
  refine congrArg C (funext fun a => Fin.ext ?_)
  match a with
  | ⟨0, _⟩ => show 0 + 1 * b.val = b.val; omega
  | ⟨1, _⟩ => show 512 * m + 1 * q.val = 512 * m + q.val; omega

/-- The column accumulator after the point is the column step of the tiled sum. -/
theorem cNext_cols (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (hoff : k0_off1 i = ![0, 512 * m]) (C : Vec Ideal S4x8192 .f32) (b : Fin 4) (j : ℕ) (hj : j < 8192) :
    cols (Body.cNext i x0 x1 C) b j = Chamfer.stepC (Cert.Spec.distN P0 P1) n m (cols C) b j := by
  unfold Chamfer.stepC Body.cNext
  by_cases h : 512 * m ≤ j ∧ j < 512 * m + 512
  · obtain ⟨q, rfl⟩ : ∃ q : Fin 512, j = 512 * m + q.val := ⟨⟨j - 512 * m, by omega⟩, by show j = 512 * m + (j - 512 * m); omega⟩
    rw [if_pos h, cols_lt _ b _ hj, cols_lt C b _ hj]
    refine (overlay_window_in (k0_off1 i) (k0_off1_inb i) m hm hoff C _ b q).trans ?_
    rw [PayIdx.pay1_apply, tile_col_inf P0 P1 i n m hn hm hi0 hi1 x0 x1 hx0 hx1 b q, hi0, ld_window (k0_off1 i) (k0_off1_inb i) m hm hoff C b q]
  · rw [if_neg h, cols_lt _ b _ hj, cols_lt C b _ hj]
    exact overlay_window_out (k0_off1 i) (k0_off1_inb i) m hoff C _ b j hj h

/-! ## The output -/

/-- The output after the point is the output step of the tiled sum, from the two accumulators after the point. -/
theorem oNext_vec (P0 P1 : Cert.Spec.Cloud.Idx → EReal) (i : grid0.Coords) (n m : ℕ) (hn : n < 16) (hm : m < 16)
    (hi0 : (i 0).val = n) (hi1 : (i 1).val = m) (x0 x1 : Vec Ideal S4x512x3 .f32)
    (hx0 : ∀ (b : Fin 4) (p : Fin 512) (d : Fin 3), x0 (ix3 b p d) = P0 (ix3 b ⟨512 * n + p.val, by omega⟩ d))
    (hx1 : ∀ (b : Fin 4) (q : Fin 512) (d : Fin 3), x1 (ix3 b q d) = P1 (ix3 b ⟨512 * m + q.val, by omega⟩ d))
    (hoff : k0_off1 i = ![0, 512 * m])
    (hc1 : k0_cond1 i = 1#1 ↔ (n = 0 ∧ m = 0)) (hc2 : k0_cond2 i = 1#1 ↔ m = 15) (hc3 : k0_cond3 i = 1#1 ↔ n = 15)
    (o : Vec Ideal S4 .f32) (R : Vec Ideal S4x512 .f32) (C : Vec Ideal S4x8192 .f32) (b : Fin 4) :
    Body.oNext i x0 x1 o R C (ix1 b)
      = Chamfer.stepO Cert.Spec.mean n m (vec4 o) (cols (Body.rNext i x0 x1 R)) (cols (Body.cNext i x0 x1 C)) b := by
  have sR : (∑ p : Fin 512, Body.rNext i x0 x1 R (ix2 b p))
      = ∑ p ∈ Finset.range 512, cols (Body.rNext i x0 x1 R) b p := by
    rw [← Cert.MeanAdd.sum_univ_fin 512 (fun p => cols (Body.rNext i x0 x1 R) b p)]
    exact Finset.sum_congr rfl fun p _ => (cols_val _ b p).symm
  have sC : (∑ q : Fin 512, View.ld (Body.cNext i x0 x1 C) (Body.rcol i) (ix2 b q))
      = ∑ q ∈ Finset.range 512, cols (Body.cNext i x0 x1 C) b (512 * m + q) := by
    rw [← Cert.MeanAdd.sum_univ_fin 512 (fun q => cols (Body.cNext i x0 x1 C) b (512 * m + q))]
    refine Finset.sum_congr rfl fun q _ => ?_
    rw [cols_lt _ b (512 * m + q.val) (by omega)]
    exact ld_window (k0_off1 i) (k0_off1_inb i) m hm hoff _ b q
  unfold Body.oNext Chamfer.stepO
  simp only [hc1, hc2, hc3]
  by_cases h1 : n = 0 ∧ m = 0 <;> by_cases h2 : m = 15 <;> by_cases h3 : n = 15
  all_goals
    (first | simp only [if_pos h1] | simp only [if_neg h1])
    (first | simp only [if_pos h2] | simp only [if_neg h2])
    (first | simp only [if_pos h3] | simp only [if_neg h3])
    simp only [PayIdx.pay2_apply, PayIdx.pay6_apply, PayIdx.pay3_apply, sR, sC, vec4]

end Cert.KernelIdeal.Link

end
-- ==== Proof.Blocks.lean ====
import proofs.«169811_j3813930959465_1_alg».proof.Proof.Gen.KernelIdeal.Frame
import Idealize.ShloMosaic.Lib.ValueIdx
import Idealize.ShloMosaic.Lib.StableHlo.Run
import Idealize.ShloMosaic.Lib.Pipeline.Value

/-!
  The kernel's grid and its input blocks.

  The kernel runs on a 16 × 16 grid, point `t` at coordinates (t / 16, t % 16), last coordinate fastest. At point `t`
  it is handed block t / 16 of the first cloud and block t % 16 of the second, each of 512 consecutive points, out of the
  two arrays the host wrote before the call: each argument divided, element by element, by the constant 1. This module
  states where each coordinate, offset and condition of the kernel's text stands at point `t`, reads each input block
  off its array, and reads the two arrays off the arguments.
-/

noncomputable section

namespace Cert.KernelIdeal.Blocks

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ) (c : Dev nD)

/-! ## The grid in closed form -/

/-- The first coordinate of point `t` is t / 16. -/
theorem coords0 : ∀ t : Fin cfg0.N, (grid0.coords t 0).val = t.val / 16 :=
  (by decide +kernel : ∀ t : Fin grid0.N, (grid0.coords t 0).val = t.val / 16)

/-- The second coordinate of point `t` is t % 16. -/
theorem coords1 : ∀ t : Fin cfg0.N, (grid0.coords t 1).val = t.val % 16 :=
  (by decide +kernel : ∀ t : Fin grid0.N, (grid0.coords t 1).val = t.val % 16)

/-- The column offset into the vector of column minima: 512 columns per block of the second cloud. -/
theorem off1 : ∀ t : Fin cfg0.N, k0_off1 (grid0.coords t) = ![0, 512 * (t.val % 16)] :=
  (by decide +kernel : ∀ t : Fin grid0.N, k0_off1 (grid0.coords t) = ![0, 512 * (t.val % 16)])

/-- The first condition holds at the first point only. -/
theorem cond1 : ∀ t : Fin cfg0.N, k0_cond1 (grid0.coords t) = 1#1 ↔ (t.val / 16 = 0 ∧ t.val % 16 = 0) :=
  (by decide +kernel : ∀ t : Fin grid0.N, k0_cond1 (grid0.coords t) = 1#1 ↔ (t.val / 16 = 0 ∧ t.val % 16 = 0))

/-- The second condition holds at the last block of the second cloud. -/
theorem cond2 : ∀ t : Fin cfg0.N, k0_cond2 (grid0.coords t) = 1#1 ↔ t.val % 16 = 15 :=
  (by decide +kernel : ∀ t : Fin grid0.N, k0_cond2 (grid0.coords t) = 1#1 ↔ t.val % 16 = 15)

/-- The third condition holds at the last block of the first cloud. -/
theorem cond3 : ∀ t : Fin cfg0.N, k0_cond3 (grid0.coords t) = 1#1 ↔ t.val / 16 = 15 :=
  (by decide +kernel : ∀ t : Fin grid0.N, k0_cond3 (grid0.coords t) = 1#1 ↔ t.val / 16 = 15)

/-- The result's window is left alone exactly where none of the three conditions holds. -/
theorem idle2 : ∀ t : Fin cfg0.N, cfg0.idle 2 (grid0.coords t) = true
    ↔ (¬ (t.val / 16 = 0 ∧ t.val % 16 = 0) ∧ t.val % 16 ≠ 15 ∧ t.val / 16 ≠ 15) :=
  (by decide +kernel : ∀ t : Fin grid0.N, idle0 2 (grid0.coords t) = true
    ↔ (¬ (t.val / 16 = 0 ∧ t.val % 16 = 0) ∧ t.val % 16 ≠ 15 ∧ t.val / 16 ≠ 15))

/-- The result is written back at the last point only. -/
theorem noflush2 : ∀ t : Fin cfg0.N, t.val ≠ 255 → (cfg0.win 2).flush t = false :=
  (by decide +kernel : ∀ t : Fin grid0.N, t.val ≠ 255 → win0_2.flush t = false)

/-- The result's window is never fetched. -/
theorem nofetch2 : ∀ t : Fin cfg0.N, (cfg0.win 2).fetch t = false :=
  (by decide +kernel : ∀ t : Fin grid0.N, win0_2.fetch t = false)

/-- The two input windows are never left alone. -/
theorem live0 : ∀ t : Fin cfg0.N, cfg0.idle 0 (grid0.coords t) = false := fun _ => rfl
theorem live1 : ∀ t : Fin cfg0.N, cfg0.idle 1 (grid0.coords t) = false := fun _ => rfl

/-- The input windows' block indices: block t / 16 of the first cloud, block t % 16 of the second, whole on the other
    two axes. -/
theorem idx_facts : ∀ t : Fin cfg0.N, win0_0.index t (0 : Fin 3) = 0 ∧ win0_0.index t (1 : Fin 3) = t.val / 16
    ∧ win0_0.index t (2 : Fin 3) = 0 ∧ win0_1.index t (0 : Fin 3) = 0 ∧ win0_1.index t (1 : Fin 3) = t.val % 16
    ∧ win0_1.index t (2 : Fin 3) = 0 :=
  (by decide +kernel : ∀ t : Fin grid0.N, _)

/-! ## The input blocks -/

/-- A grid point's number is below 256. -/
theorem t_lt (t : Fin cfg0.N) : t.val < 256 := Nat.lt_of_lt_of_eq t.isLt N_0

/-- The first cloud's block at point `t`: its row `p` is row 512·(t / 16) + p of the array. -/
theorem blk0 (t : Fin cfg0.N) (b : Fin 4) (p : Fin 512) (d : Fin 3) :
    iblk m c 0 t (ix3 b p d)
      = (V m c main_v1 : S4x8192x3.Idx → EReal)
          (ix3 b (⟨512 * (t.val / 16) + p.val, by have := t_lt t; have := p.isLt; omega⟩ : Fin 8192) d) := by
  have ht := t_lt t
  obtain ⟨e0, e1, e2, -, -, -⟩ := idx_facts t
  show V m c main_v1 (((cfg0.win 0).blk t).view.emb (ix3 b p d)) = _
  refine congrArg (V m c main_v1) (funext fun a => Fin.ext ?_)
  match a with
  | ⟨0, _⟩ => show win0_0.index t (0 : Fin 3) * 4 + 1 * b.val = b.val; omega
  | ⟨1, _⟩ => show win0_0.index t (1 : Fin 3) * 512 + 1 * p.val = 512 * (t.val / 16) + p.val; omega
  | ⟨2, _⟩ => show win0_0.index t (2 : Fin 3) * 3 + 1 * d.val = d.val; omega

/-- The second cloud's block at point `t`: its row `q` is row 512·(t % 16) + q of the array. -/
theorem blk1 (t : Fin cfg0.N) (b : Fin 4) (q : Fin 512) (d : Fin 3) :
    iblk m c 1 t (ix3 b q d)
      = (V m c main_v3 : S4x8192x3.Idx → EReal)
          (ix3 b (⟨512 * (t.val % 16) + q.val, by have := q.isLt; omega⟩ : Fin 8192) d) := by
  obtain ⟨-, -, -, e0, e1, e2⟩ := idx_facts t
  show V m c main_v3 (((cfg0.win 1).blk t).view.emb (ix3 b q d)) = _
  refine congrArg (V m c main_v3) (funext fun a => Fin.ext ?_)
  match a with
  | ⟨0, _⟩ => show win0_1.index t (0 : Fin 3) * 4 + 1 * b.val = b.val; omega
  | ⟨1, _⟩ => show win0_1.index t (1 : Fin 3) * 512 + 1 * q.val = 512 * (t.val % 16) + q.val; omega
  | ⟨2, _⟩ => show win0_1.index t (2 : Fin 3) * 3 + 1 * d.val = d.val; omega

/-! ## The two arrays the kernel reads -/

/-- The first window's array is the first argument divided by the constant 1. -/
theorem V_v1 : (V m c main_v1 : S4x8192x3.Idx → EReal)
    = (Host.divf (m ((c : Thread nD τ).loc main_arg0))
        (broadcastInDim S4x8192x3 ![] bcast_S_S4x8192x3 (constant (F := Ideal) S_ .f32 0x3F800000#32))
        : (⟨S4x8192x3, .f32⟩ : BufTy).Contents (Elt Ideal)) := by
  dsimp only [Gen.V, Gen.hostOps0]; after_results

/-- The second window's array is the second argument divided by the constant 1. -/
theorem V_v3 : (V m c main_v3 : S4x8192x3.Idx → EReal)
    = (Host.divf (m ((c : Thread nD τ).loc main_arg1))
        (broadcastInDim S4x8192x3 ![] bcast_S_S4x8192x3 (constant (F := Ideal) S_ .f32 0x3F800000#32))
        : (⟨S4x8192x3, .f32⟩ : BufTy).Contents (Elt Ideal)) := by
  dsimp only [Gen.V, Gen.hostOps0]; after_results

end Cert.KernelIdeal.Blocks

end
-- ==== Proof.OutArray.lean ====
import proofs.«169811_j3813930959465_1_alg».proof.Proof.Gen.KernelIdeal.Frame
import Idealize.ShloMosaic.Lib.Pipeline.Value

/-!
  The result array after the kernel's region.

  The result is an array of four numbers, one per batch, and its window's one block is the whole array. The block is
  written back once, at the last of the 256 grid points. So whatever the body has left in the window's buffer after
  the last point is what the array holds after the region.
-/

noncomputable section

namespace Cert.KernelIdeal.OutArray

open Cert.KernelIdeal Cert.KernelIdeal.Gen Idealize.ShloMosaic Idealize.ShloMosaic.TcCoe Idealize.SL.Sem
open Idealize.ShloMosaic.Pipeline (Dat)

variable {F : FTy → Type} [FloatOps F]

/-- The result's window stays at block 0. -/
theorem idx2 : ∀ t : Fin cfg0.N, win0_2.index t (0 : Fin 1) = 0 :=
  (by decide +kernel : ∀ t : Fin grid0.N, win0_2.index t (0 : Fin 1) = 0)

/-- The last grid point. -/
abbrev last : Fin cfg0.N := ⟨255, by rw [show cfg0.N = 256 from N_0]; omega⟩

/-- A point that writes the result back is the last one. -/
theorem eq_last_of_flush (t : Fin cfg0.N) (hf : (cfg0.win 2).flush t = true) : t = last :=
  Fin.ext (by
    have h1 := (flush0_2 t).mp hf
    have h2 : t.val < 256 := Nat.lt_of_lt_of_eq t.isLt N_0
    show t.val = 255
    omega)

/-- Every index of the result array is in the window's block, at any point. -/
theorem mem_blk2 (t : Fin cfg0.N) (i : S4.Idx) : i ∈ ((cfg0.win 2).blk t).view.set := by
  show i ∈ ((View.whole main_v4).slice (win0_2.rect t)).set
  rw [View.set_slice_whole, Rect.mem_set_unit]
  intro a
  match a with
  | ⟨0, _⟩ =>
    show win0_2.index t (0 : Fin 1) * 4 ≤ (i 0).val ∧ (i 0).val < win0_2.index t (0 : Fin 1) * 4 + 4
    have e := idx2 t
    have hi : (i 0).val < 4 := (i 0).isLt
    omega

/-- THE RESULT ARRAY after the region is what the body left in the window's buffer after the last point. -/
theorem arrAt_out {c : Dev nD} (dat : Dat τ (Elt F) Unit ℕ (UR sig nD τ) ℕ cfg0 c) (X : S4.Idx → Elt F .f32)
    (h : dat.after 2 last = X) : dat.arrAt 2 cfg0.N = X := by
  refine dat.arrAt_eq_of_cover 2 X (fun t hf => ?_) (fun i => ⟨last, (flush0_2 last).mpr rfl, mem_blk2 last i⟩)
  obtain rfl := eq_last_of_flush t hf
  show (cfg0.win 2).cut (grid0.coords last) (dat.after 2 last) = _
  rw [h]
  funext y
  show X ((cfg0.win 2).xinj (grid0.coords last) y) = X (((cfg0.win 2).blk last).view.emb y)
  refine congrArg X (funext fun a => Fin.ext ?_)
  match a with
  | ⟨0, _⟩ =>
    show (y 0).val = win0_2.index last (0 : Fin 1) * 4 + 1 * (y 0).val
    have e := idx2 last
    omega

end Cert.KernelIdeal.OutArray

end
-- ==== Proof.FrameIdeal.lean ====
/-
  The idealized kernel's run with its three carried buffers tracked: after grid point `t` (tile `(t / 16, t % 16)`) the
  output block holds the closed form `Chamfer.Oc` of the distance matrix of the two clouds, the row accumulator the
  running row minima of the sweep and the column accumulator the running column minima (`Chamfer.InvR`, `InvC`);
  after the last point the output array is the two-sided nearest-neighbour mean `Cert.Spec.G`.
-/
import proofs.«169811_j3813930959465_1_alg».proof.Proof.BodyIdeal
import proofs.«169811_j3813930959465_1_alg».proof.Proof.Chamfer
import proofs.«169811_j3813930959465_1_alg».proof.Proof.MeanAdd
import proofs.«169811_j3813930959465_1_alg».proof.Proof.Spec
import proofs.«169811_j3813930959465_1_alg».proof.Proof.Link
import proofs.«169811_j3813930959465_1_alg».proof.Proof.Blocks
import proofs.«169811_j3813930959465_1_alg».proof.Proof.OutArray
import Idealize.ShloMosaic.Lib.Pipeline.Value

set_option maxRecDepth 16384

noncomputable section

namespace Cert.KernelIdeal.FrameIdeal

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The schedule of the output window, decided over the grid -/

theorem N256 : cfg0.N = 256 := N_0

/-- The output window is never fetched, -/
theorem nofetch2 : ∀ t : Fin cfg0.N, (cfg0.win 2).fetch t = false :=
  (by decide +kernel : ∀ t : Fin grid0.N, win0_2.fetch t = false)
/-- and is written back at the last point only. -/
theorem noflush2 (t : Fin cfg0.N) (h : t.val ≠ 255) : (cfg0.win 2).flush t = false := by
  have h1 := flush0_2 t
  have : t.val < 256 := lt_of_lt_of_eq t.isLt N256
  cases hf : (cfg0.win 2).flush t
  · rfl
  · exact absurd (h1.mp hf) (by omega)
theorem flush2_last (t : Fin cfg0.N) (h : t.val = 255) : (cfg0.win 2).flush t = true :=
  (flush0_2 t).mpr (by omega)

/-- The body stores nothing into the output block exactly at the tiles that are neither the first, nor in the last
    column of tiles, nor in the last row of tiles. -/
theorem idle2 : ∀ t : Fin cfg0.N, cfg0.idle 2 (grid0.coords t) = true
    ↔ (¬ (t.val / 16 = 0 ∧ t.val % 16 = 0) ∧ t.val % 16 ≠ 15 ∧ t.val / 16 ≠ 15) :=
  (by decide +kernel : ∀ t : Fin grid0.N, idle0 2 (grid0.coords t) = true
    ↔ (¬ (t.val / 16 = 0 ∧ t.val % 16 = 0) ∧ t.val % 16 ≠ 15 ∧ t.val / 16 ≠ 15))

/-- The output window's blocks are never clipped. -/
theorem noclip2 : ∀ (i : cfg0.grid.Coords) (a), (cfg0.win 2).clip i a = none := by
  intro i a; rfl

/-! ## The tracked contents -/

/-- The two clouds as the region finds them, and their distance matrix. -/
abbrev P0 (c : Dev nD) : Cert.Spec.Cloud.Idx → EReal := V m c main_v1
abbrev P1 (c : Dev nD) : Cert.Spec.Cloud.Idx → EReal := V m c main_v3
abbrev DD (c : Dev nD) : Fin 4 → ℕ → ℕ → EReal := Cert.Spec.distN (P0 m c) (P1 m c)

/-- The output block after point `t`. -/
def outAt (c : Dev nD) (t : ℕ) : Vec Ideal S4 .f32 :=
  fun j => Chamfer.Oc (DD m c) Cert.Spec.mean (t / 16) (t % 16) (j 0)

/-- At a tile where the body stores nothing into the output block the closed form does not move. -/
theorem outAt_idle (c : Dev nD) (t : ℕ) (hlt : t < 256) (ht : t ≠ 0) (h : ¬ (t / 16 = 0 ∧ t % 16 = 0) ∧ t % 16 ≠ 15 ∧ t / 16 ≠ 15) :
    outAt m c t = outAt m c (t - 1) := by
  obtain ⟨h1, h2, h3⟩ := h
  funext j
  unfold outAt Chamfer.Oc
  by_cases hm : t % 16 = 0
  · -- first tile of a sweep: the previous tile closed the sweep before
    have hn0 : t / 16 ≠ 0 := fun h0 => h1 ⟨h0, hm⟩
    have e1 : (t - 1) / 16 = t / 16 - 1 := by omega
    have e2 : (t - 1) % 16 = 15 := by omega
    have e3 : t / 16 - 1 ≠ 15 := by omega
    have e4 : t / 16 = (t / 16 - 1) + 1 := by omega
    simp only [e1, e2, if_neg h2, if_neg h3, if_neg e3, if_true]
    conv_lhs => rw [e4, Finset.sum_range_succ]
    simp only [add_zero]
  · have e1 : (t - 1) / 16 = t / 16 := by omega
    have e2 : (t - 1) % 16 ≠ 15 := by omega
    simp only [e1, if_neg h2, if_neg h3, if_neg e2]

/-! ## The proof data -/

abbrev ms0 (t : Fin cfg0.N) : Memref sig .tc .vmem S4x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4 .f32 := win0_2.stage (cfg0.slots t 2)
abbrev hs2 (t : Fin cfg0.N) : (ms2 t).IsWhole := hstage0_2 ((cfg0.slots t 2).cast nbuf0_2)
/-- The two scratch operands: the row accumulator and the column accumulator. -/
abbrev scM0 : Memref sig .tc .vmem S4x512 .f32 := Memref.whole cc0_scratch0
abbrev scM1 : Memref sig .tc .vmem S4x8192 .f32 := Memref.whole cc0_scratch1

/-- What the region hands the body besides the windows: the two accumulators at anything, the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: before the first point the accumulators hold anything; afterwards they hold
    the running minima of the tiles visited so far. -/
def PhiS (c : Dev nD) : ℕ → sProp 𝕄
  | 0 => Pipeline.ΦA spec0 c
  | t + 1 => iprop(iprop(∃ R, ∃ C, ⌜Chamfer.InvR (DD m c) (t / 16) (t % 16) (Link.cols R) ∧ Chamfer.InvC (DD m c) (t / 16) (t % 16) (Link.cols C)⌝
      ∗ owns (c : Thread nD τ) scM0 fullShare R ∗ owns (c : Thread nD τ) scM1 fullShare C) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point the output's staging buffer holds the closed form of the point before: it is neither
    fetched nor written back before the end, and a point that stores nothing into it leaves it as it was. -/
theorem before2 (c : Dev nD) : ∀ (n : ℕ) (hn : n < cfg0.N), n ≠ 0 → ∀ d, (dats m 0 c).before 2 ⟨n, hn⟩ d = outAt m c (n - 1) := by
  intro n
  induction n with
  | zero => intro _ h; exact absurd rfl h
  | succ k ih =>
    intro hn _ d
    have hk : k < cfg0.N := Nat.lt_of_succ_lt hn
    have hk255 : k ≠ 255 := by have := lt_of_lt_of_eq hn N256; omega
    rw [(dats m 0 c).before_of_pos 2 ⟨k + 1, hn⟩ (Nat.succ_ne_zero k) (nofetch2 _)]
    rw [show (⟨(⟨k + 1, hn⟩ : Fin cfg0.N).val - 1, _⟩ : Fin cfg0.N) = ⟨k, hk⟩ from rfl]
    rw [noflush2 ⟨k, hk⟩ hk255, if_neg Bool.false_ne_true]
    unfold Dat.left
    cases hi : cfg0.idle 2 (grid0.coords ⟨k, hk⟩)
    · -- the point before stored into the block
      dsimp only
      unfold Dat.kept
      rw [Pipeline.fill_of_clip_none (cfg := cfg0) 2 _ (noclip2 _) d ((dats m 0 c).after 2 ⟨k, hk⟩), Window.fill_cut, after2]
      rfl
    · dsimp only
      have hcl := (idle2 ⟨k, hk⟩).mp hi
      have hk0 : k ≠ 0 := by
        intro h0; subst h0; exact hcl.1 ⟨Nat.zero_div 16, Nat.zero_mod 16⟩
      rw [ih hk hk0 d, Nat.add_sub_cancel]
      exact (outAt_idle m c k (by have := lt_of_lt_of_eq hk N256; omega) hk0 hcl).symm

/-! ## One point keeps the closed forms -/

theorem point_ok (c : Dev nD) (t : Fin cfg0.N) (o : Vec Ideal S4 .f32) (R : Vec Ideal S4x512 .f32) (C : Vec Ideal S4x8192 .f32)
    (hprev : t.val ≠ 0 → Chamfer.InvR (DD m c) ((t.val - 1) / 16) ((t.val - 1) % 16) (Link.cols R)
        ∧ Chamfer.InvC (DD m c) ((t.val - 1) / 16) ((t.val - 1) % 16) (Link.cols C) ∧ o = outAt m c (t.val - 1)) :
    Chamfer.InvR (DD m c) (t.val / 16) (t.val % 16) (Link.cols (rNext (grid0.coords t) (iblk m c 0 t) (iblk m c 1 t) R))
    ∧ Chamfer.InvC (DD m c) (t.val / 16) (t.val % 16) (Link.cols (cNext (grid0.coords t) (iblk m c 0 t) (iblk m c 1 t) C))
    ∧ (cfg0.idle 2 (grid0.coords t) = false → oNext (grid0.coords t) (iblk m c 0 t) (iblk m c 1 t) o R C = outAt m c t.val)
    ∧ (cfg0.idle 2 (grid0.coords t) = true → oNext (grid0.coords t) (iblk m c 0 t) (iblk m c 1 t) o R C = o) := by
  have hlt : t.val < 256 := lt_of_lt_of_eq t.isLt N256
  have hn : t.val / 16 < 16 := by omega
  have hm : t.val % 16 < 16 := by omega
  have hx0 := Blocks.blk0 m c t
  have hx1 := Blocks.blk1 m c t
  have hi0 := Blocks.coords0 t
  have hi1 := Blocks.coords1 t
  have hoff := Blocks.off1 t
  -- the tile before this one: the one to the left, or the last of the row of tiles above
  have pm : t.val % 16 ≠ 0 → (t.val - 1) / 16 = t.val / 16 ∧ (t.val - 1) % 16 = t.val % 16 - 1 := fun h => by omega
  have p0 : t.val % 16 = 0 → t.val / 16 ≠ 0 → (t.val - 1) / 16 = t.val / 16 - 1 ∧ (t.val - 1) % 16 = 15 := fun h h' => by omega
  have hR0 := Chamfer.stepR_inv (D := DD m c) (t.val / 16) (t.val % 16) (Link.cols R) (fun h => by
    have ht0 : t.val ≠ 0 := by omega
    have h' := (hprev ht0).1
    rw [(pm h).1, (pm h).2] at h'
    exact h')
  have hC0 := Chamfer.stepC_inv (D := DD m c) (t.val / 16) (t.val % 16) hn hm (Link.cols C)
    (fun h => by
      have ht0 : t.val ≠ 0 := by omega
      have h' := (hprev ht0).2.1
      rw [(pm h).1, (pm h).2] at h'
      exact h')
    (fun h h2 => by
      have ht0 : t.val ≠ 0 := by omega
      have h' := (hprev ht0).2.1
      rw [(p0 h h2).1, (p0 h h2).2] at h'
      exact h')
  have hR : Chamfer.InvR (DD m c) (t.val / 16) (t.val % 16) (Link.cols (rNext (grid0.coords t) (iblk m c 0 t) (iblk m c 1 t) R)) :=
    fun b p hp => (Link.rNext_cols (P0 m c) (P1 m c) (grid0.coords t) (t.val / 16) (t.val % 16) hn hm hi0 hi1 (iblk m c 0 t) (iblk m c 1 t) hx0 hx1 R b p hp).trans (hR0 b p hp)
  have hC : Chamfer.InvC (DD m c) (t.val / 16) (t.val % 16) (Link.cols (cNext (grid0.coords t) (iblk m c 0 t) (iblk m c 1 t) C)) :=
    fun b j hj => by
      rw [Link.cNext_cols (P0 m c) (P1 m c) (grid0.coords t) (t.val / 16) (t.val % 16) hn hm hi0 hi1 (iblk m c 0 t) (iblk m c 1 t) hx0 hx1 hoff C b j hj]
      exact hC0 b j hj
  refine ⟨hR, hC, ?_, ?_⟩
  · intro _
    funext j
    obtain ⟨b, rfl⟩ : ∃ b, j = ix1 b := ⟨j 0, eq_ix1 j⟩
    rw [Link.oNext_vec (P0 m c) (P1 m c) (grid0.coords t) (t.val / 16) (t.val % 16) hn hm hi0 hi1 (iblk m c 0 t) (iblk m c 1 t) hx0 hx1 hoff
      (Blocks.cond1 t) (Blocks.cond2 t) (Blocks.cond3 t) o R C b]
    have hO := Chamfer.stepO_eq (D := DD m c) (φ := Cert.Spec.mean) Cert.MeanAdd.mean_add (t.val / 16) (t.val % 16) hn hm (Link.vec4 o)
      (Link.cols (rNext (grid0.coords t) (iblk m c 0 t) (iblk m c 1 t) R)) (Link.cols (cNext (grid0.coords t) (iblk m c 0 t) (iblk m c 1 t) C))
      (fun h => by
        have ht0 : t.val ≠ 0 := by omega
        rw [(hprev ht0).2.2]
        funext b'
        show Chamfer.Oc (DD m c) Cert.Spec.mean ((t.val - 1) / 16) ((t.val - 1) % 16) b' = _
        rw [(pm h).1, (pm h).2])
      (fun h h2 => by
        have ht0 : t.val ≠ 0 := by omega
        rw [(hprev ht0).2.2]
        funext b'
        show Chamfer.Oc (DD m c) Cert.Spec.mean ((t.val - 1) / 16) ((t.val - 1) % 16) b' = _
        rw [(p0 h h2).1, (p0 h h2).2])
      hR hC
    exact congrFun hO b
  · intro hi
    have hcl := (idle2 t).mp hi
    have c1 : ¬ k0_cond1 (grid0.coords t) = 1#1 := fun h => hcl.1 ((Blocks.cond1 t).mp h)
    have c2 : ¬ k0_cond2 (grid0.coords t) = 1#1 := fun h => hcl.2.1 ((Blocks.cond2 t).mp h)
    have c3 : ¬ k0_cond3 (grid0.coords t) = 1#1 := fun h => hcl.2.2 ((Blocks.cond3 t).mp h)
    unfold oNext
    simp only [if_neg c1, if_neg c2, if_neg c3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem PhiS_succ (c : Dev nD) (k : ℕ) :
    PhiS m c (k + 1) = iprop(iprop(∃ R, ∃ C, ⌜Chamfer.InvR (DD m c) (k / 16) (k % 16) (Link.cols R) ∧ Chamfer.InvC (DD m c) (k / 16) (k % 16) (Link.cols C)⌝
      ∗ owns (c : Thread nD τ) scM0 fullShare R ∗ owns (c : Thread nD τ) scM1 fullShare C) ∗ (∃ r, prngReg c r)) := rfl

theorem PhiS_pos (c : Dev nD) (n : ℕ) (hn : n ≠ 0) :
    PhiS m c n = iprop(iprop(∃ R, ∃ C, ⌜Chamfer.InvR (DD m c) ((n - 1) / 16) ((n - 1) % 16) (Link.cols R) ∧ Chamfer.InvC (DD m c) ((n - 1) / 16) ((n - 1) % 16) (Link.cols C)⌝
      ∗ owns (c : Thread nD τ) scM0 fullShare R ∗ owns (c : Thread nD τ) scM1 fullShare C) ∗ (∃ r, prngReg c r)) := by
  cases n with
  | zero => exact absurd rfl hn
  | succ k => rfl

/-- The end of a point: the invariant and the three windows handed back. -/
theorem finish (c : Dev nD) (t : Fin cfg0.N) (d2 : Vec Ideal S4 .f32) (R : Vec Ideal S4x512 .f32) (C : Vec Ideal S4x8192 .f32)
    (hR : Chamfer.InvR (DD m c) (t.val / 16) (t.val % 16) (Link.cols (rNext (grid0.coords t) (iblk m c 0 t) (iblk m c 1 t) R)))
    (hC : Chamfer.InvC (DD m c) (t.val / 16) (t.val % 16) (Link.cols (cNext (grid0.coords t) (iblk m c 0 t) (iblk m c 1 t) C)))
    (hOl : cfg0.idle 2 (grid0.coords t) = false → oNext (grid0.coords t) (iblk m c 0 t) (iblk m c 1 t) ((dats m 0 c).before 2 t d2) R C = outAt m c t.val)
    (hOi : cfg0.idle 2 (grid0.coords t) = true → oNext (grid0.coords t) (iblk m c 0 t) (iblk m c 1 t) ((dats m 0 c).before 2 t d2) R C = (dats m 0 c).before 2 t d2) :
    iprop((∃ r, prngReg c r) ∗ (dats m 0 c).owesAt () t.castSucc
        ∗ owns (c : Thread nD τ) (ms0 t) fullShare (iblk m c 0 t) ∗ owns (c : Thread nD τ) (ms1 t) fullShare (iblk m c 1 t)
        ∗ owns (c : Thread nD τ) (ms2 t) fullShare (oNext (grid0.coords t) (iblk m c 0 t) (iblk m c 1 t) ((dats m 0 c).before 2 t d2) R C)
        ∗ owns (c : Thread nD τ) scM0 fullShare (rNext (grid0.coords t) (iblk m c 0 t) (iblk m c 1 t) R)
        ∗ owns (c : Thread nD τ) scM1 fullShare (cNext (grid0.coords t) (iblk m c 0 t) (iblk m c 1 t) C))
      ⊢ iprop(PhiS m c (t.val + 1) ∗ (dats m 0 c).owesAt () t.castSucc
        ∗ owns (c : Thread nD τ) (ms0 t) fullShare (iblk m c 0 t)
        ∗ owns (c : Thread nD τ) (ms1 t) fullShare (iblk m c 1 t)
        ∗ (dats m 0 c).leavesExact 2 t) := by
  rw [PhiS_succ]
  cases hi : cfg0.idle 2 (grid0.coords t)
  · rw [show (dats m 0 c).leavesExact 2 t = owns (c : Thread nD τ) (ms2 t) fullShare ((dats m 0 c).after 2 t) from by
      unfold Dat.leavesExact; rw [hi], after2, hOl hi]
    iintro ⟨Hg, Ho, H0, H1, H2, HS0, HS1⟩
    isplitl [HS0 HS1 Hg]
    · isplitl [HS0 HS1]
      · iexists _; iexists _; isplitr; · ipureintro; exact ⟨hR, hC⟩
        isplitl [HS0]; · iexact HS0
        iexact HS1
      iexact Hg
    isplitl [Ho]; · iexact Ho
    isplitl [H0]; · iexact H0
    isplitl [H1]; · iexact H1
    iexact H2
  · have h255 : t.val ≠ 255 := by
      intro h; have := (idle2 t).mp hi; omega
    rw [Dat.leavesExact_idle (dats m 0 c) 2 t hi (noflush2 t h255), hOi hi]
    iintro ⟨Hg, Ho, H0, H1, H2, HS0, HS1⟩
    isplitl [HS0 HS1 Hg]
    · isplitl [HS0 HS1]
      · iexists _; iexists _; isplitr; · ipureintro; exact ⟨hR, hC⟩
        isplitl [HS0]; · iexact HS0
        iexact HS1
      iexact Hg
    isplitl [Ho]; · iexact Ho
    isplitl [H0]; · iexact H0
    isplitl [H1]; · iexact H1
    iexists _; iexact H2

set_option maxHeartbeats 1600000 in
/-- The body at any point: the invariant hands over the accumulators, the body runs (the one-point maps), and the
    closed forms are re-established. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare (iblk m c 0 t) from by
        unfold Dat.leavesExact; rw [show cfg0.idle 0 (grid0.coords t) = false from rfl, after0],
      show (dats m 0 c).leavesExact 1 t = owns (c : Thread nD τ) (ms1 t) fullShare (iblk m c 1 t) from by
        unfold Dat.leavesExact; rw [show cfg0.idle 1 (grid0.coords t) = false from rfl, after1]]
  by_cases hz : t.val = 0
  · rw [show PhiS m c t.val = Pipeline.ΦA spec0 c from by rw [hz]; rfl, PhiA0_eq]
    iintro ⟨⟨⟨⟨%R, HS0⟩, ⟨%C, HS1⟩⟩, Hg⟩, Ho, ⟨%d0, H0⟩, ⟨%d1, H1⟩, ⟨%d2, H2⟩⟩
    obtain ⟨hR, hC, hOl, hOi⟩ := point_ok m c t ((dats m 0 c).before 2 t d2) R C (fun h => absurd hz h)
    iapply (body_run c (grid0.coords t) (ms0 t) (hs0 t) (ms1 t) (hs1 t) (ms2 t) (hs2 t) scM0 (Memref.isWhole_whole _) scM1 (Memref.isWhole_whole _)
      (iblk m c 0 t) (iblk m c 1 t) ((dats m 0 c).before 2 t d2) R C Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    iapply (finish m c t d2 R C hR hC hOl hOi)
    isplitl [Hg]; · iexact Hg
    isplitl [Ho]; · iexact Ho
    isplitl [H0]; · iexact H0
    isplitl [H1]; · iexact H1
    isplitl [H2]; · iexact H2
    isplitl [HS0]; · iexact HS0
    iexact HS1
  · rw [PhiS_pos m c t.val hz]
    iintro ⟨⟨⟨%R, %C, %hinv, HS0, HS1⟩, Hg⟩, Ho, ⟨%d0, H0⟩, ⟨%d1, H1⟩, ⟨%d2, H2⟩⟩
    obtain ⟨hR, hC, hOl, hOi⟩ := point_ok m c t ((dats m 0 c).before 2 t d2) R C
      (fun _ => ⟨hinv.1, hinv.2, before2 m c t.val t.isLt hz d2⟩)
    iapply (body_run c (grid0.coords t) (ms0 t) (hs0 t) (ms1 t) (hs1 t) (ms2 t) (hs2 t) scM0 (Memref.isWhole_whole _) scM1 (Memref.isWhole_whole _)
      (iblk m c 0 t) (iblk m c 1 t) ((dats m 0 c).before 2 t d2) R C Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    iapply (finish m c t d2 R C hR hC hOl hOi)
    isplitl [Hg]; · iexact Hg
    isplitl [Ho]; · iexact Ho
    isplitl [H0]; · iexact H0
    isplitl [H1]; · iexact H1
    isplitl [H2]; · iexact H2
    isplitl [HS0]; · iexact HS0
    iexact HS1

theorem body_obligation (c : Dev nD) : BodyObligation (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 256 := N256; omega), PhiA0_eq]
  iintro ⟨⟨%R, %C, -, HS0, HS1⟩, Hg⟩
  isplitl [HS0 HS1]
  · isplitl [HS0]
    · iexists _; iexact HS0
    iexists _; iexact HS1
  iexact Hg

/-! ## The run -/

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The output array after the run -/

/-- After the last tile the closed form is the two-sided nearest-neighbour mean. -/
theorem outAt_last (c : Dev nD) : outAt m c 255 = Cert.Spec.G (P0 m c) (P1 m c) := by
  funext j
  exact Chamfer.Oc_last (D := DD m c) (φ := Cert.Spec.mean) Cert.MeanAdd.mean_zero Cert.MeanAdd.mean_add (j 0)

theorem final (c : Dev nD) : (dats m 0 c).arrAt 2 cfg0.N = Cert.Spec.G (P0 m c) (P1 m c) :=
  OutArray.arrAt_out (dats m 0 c) _ (by rw [after2]; exact outAt_last m c)

/-- The run of the idealized kernel with its result named. -/
theorem run_value : θ_run defs (onTc (τ := τ) (main (F := Ideal))) ⟨m, fun _ => 0, ρ⟩ (fun r => ∀ c : Dev nD,
      r.2.mem ((c.tc : Thread nD τ).loc main_v4) = Cert.Spec.G (P0 m c) (P1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.FrameIdeal

end
-- ==== Proof.RefValue.lean ====
import proofs.«169811_j3813930959465_1_alg».proof.Proof.Gen.ReferenceIdeal.Read
import proofs.«169811_j3813930959465_1_alg».proof.Proof.Spec
import proofs.«169811_j3813930959465_1_alg».proof.Defs
import proofs.«169811_j3813930959465_1_alg».proof.Proof.Gen.Pre_finite_inputs
import Idealize.ShloMosaic.PureOps.Reduce
import Idealize.ShloMosaic.PureOps.Ideal.Laws

/-!
  The reference program computes the specification.

  The reference forms the table of pairwise squared distances |x_p|² + |y_q|² − 2·⟨x_p, y_q⟩ of the two (divided)
  clouds, takes its minimum along each of the two point axes starting from +∞, sums each vector of minima from 0,
  divides each sum by 8192 and adds the two quotients. Read index by index, the table's entry (b, p, q) is the
  specification's `dist`, a minimum from +∞ over an axis is the infimum over that axis's coordinates, and a sum or an
  infimum over `Fin 8192` is the sum or infimum over the natural numbers below 8192.
-/

noncomputable section

namespace Cert.RefValue

open Cert.ReferenceIdeal Cert.ReferenceIdeal.Gen Cert.ReferenceIdeal.Read Idealize.ShloMosaic Idealize.ShloMosaic.ValueIdx
  Idealize.SL.Sem Cert.Spec

/-! ## Folds, infima and ranges -/

/-- A fold of `min` from the top element is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- An infimum over `Fin n` of a function of the value is the infimum over the naturals below `n`. -/
theorem inf_univ_eq_inf_range (n : ℕ) (f : ℕ → EReal) :
    (Finset.univ : Finset (Fin n)).inf (fun k => f k.val) = (Finset.range n).inf f := by
  apply le_antisymm
  · exact Finset.le_inf fun k hk =>
      Finset.inf_le (f := fun k : Fin n => f k.val) (Finset.mem_univ ⟨k, Finset.mem_range.1 hk⟩)
  · exact Finset.le_inf fun k _ => Finset.inf_le (Finset.mem_range.2 k.isLt)

/-- Inside the arrays the distance indexed by natural numbers is the distance. -/
theorem distN_val (x y : Cloud.Idx → EReal) (b : Fin 4) (p q : Fin 8192) :
    distN x y b p.val q.val = dist x y b p q := dif_pos ⟨p.isLt, q.isLt⟩

/-- The word 0x7F800000 is +∞. -/
theorem inf_word : Ideal.ofBits .f32 0x7F800000#32 = (⊤ : EReal) := by simp [Ideal.ofBits, Ideal.ieee]

/-! ## The table of pairwise distances -/

/-- Entry (b, p, q) of the reference's table is the squared distance of point `p` of the first cloud to point `q` of the
    second: the broadcast squared norms added, less twice the contraction over the three coordinates. -/
theorem dist_apply (a0 a1 : (⟨S4x8192x3, .f32⟩ : BufTy).Contents (Elt Ideal)) (b : Fin 4) (p q : Fin 8192) :
    val_main_v16 (F := Ideal) a0 a1 (ix3 b p q)
      = dist (val_main_v1 (F := Ideal) a0) (val_main_v3 (F := Ideal) a1) b p q := by
  have eA : ∀ k : Fin 3, idx_main_v5 (idx_main_v9 (idx_main_v11 (ix3 b p q))) k = ix3 b p k := fun k =>
    funext fun a => Fin.ext (by match a with | ⟨0, _⟩ => rfl | ⟨1, _⟩ => rfl | ⟨2, _⟩ => rfl)
  have eB : ∀ k : Fin 3, idx_main_v7 (idx_main_v10 (idx_main_v12 (ix3 b p q))) k = ix3 b q k := fun k =>
    funext fun a => Fin.ext (by match a with | ⟨0, _⟩ => rfl | ⟨1, _⟩ => rfl | ⟨2, _⟩ => rfl)
  have eL : ∀ k : Fin 3, lidx_main_v8 (ix3 b p q) k = ix3 b p k := fun k =>
    funext fun a => Fin.ext (by match a with | ⟨0, _⟩ => rfl | ⟨1, _⟩ => rfl | ⟨2, _⟩ => rfl)
  have eR : ∀ k : Fin 3, ridx_main_v8 (ix3 b p q) k = ix3 b q k := fun k =>
    funext fun a => Fin.ext (by match a with | ⟨0, _⟩ => rfl | ⟨1, _⟩ => rfl | ⟨2, _⟩ => rfl)
  rw [val_main_v16_apply, val_main_v13_apply, val_main_v15_apply, val_main_v11_apply, val_main_v9_apply,
    val_main_v5_apply, val_main_v12_apply, val_main_v10_apply, val_main_v7_apply, val_main_v14_apply,
    val_main_v8_apply, val_main_cst_3_apply, val_main_cst_1_apply, val_main_cst_2_apply]
  simp only [val_main_v4_apply, val_main_v6_apply, eA, eB, eL, eR, Ideal.addf_def, Ideal.subf_def, Ideal.mulf_def,
    Ideal.ofBits_def, Ideal.ofBits_zero_f32, zero_add]
  rfl

/-! ## The two minima -/

/-- The index (b, p) of the minima along the last axis, with coordinate `k` put back on that axis. -/
theorem lift_last (h : S4x8192x8192.Reduces [2] S4x8192) (b : Fin 4) (p : Fin 8192) (k : Fin (S4x8192x8192.size 2)) :
    h.lift (ix2 b p) k = ix3 b p (⟨k.val, k.isLt⟩ : Fin 8192) := by
  funext c; apply Fin.ext
  fin_cases c <;> rfl

/-- The index (b, q) of the minima along the middle axis, with coordinate `k` put back on that axis. -/
theorem lift_mid (h : S4x8192x8192.Reduces [1] S4x8192) (b : Fin 4) (q : Fin 8192) (k : Fin (S4x8192x8192.size 1)) :
    h.lift (ix2 b q) k = ix3 b (⟨k.val, k.isLt⟩ : Fin 8192) q := by
  funext c; apply Fin.ext
  fin_cases c <;> rfl

/-- The minimum from +∞ along the last axis of a table is, at (b, p), the infimum of row (b, p). -/
theorem hostMin_last (Z : S4x8192x8192.Idx → Ideal .f32) (b : Fin 4) (p : Fin 8192) :
    Host.reduce (FloatOps.minimumf (F := Ideal) (φ := .f32)) Z (val_main_cst_4 (F := Ideal)) reducesTo_S4x8192x8192_S4x8192_d2 h_S_ (ix2 b p)
      = (Finset.univ : Finset (Fin 8192)).inf fun q => Z (ix3 b p q) := by
  have h : S4x8192x8192.Reduces [2] S4x8192 := by decide
  rw [Host.reduce_eq_fold_single (FloatOps.minimumf (F := Ideal) (φ := .f32)) Z _ reducesTo_S4x8192x8192_S4x8192_d2 h h_S_]
  have hf : (Z ∘ h.lift (ix2 b p)) = fun q : Fin 8192 => Z (ix3 b p q) :=
    funext fun k => congrArg Z (lift_last h b p k)
  have ht : val_main_cst_4 (F := Ideal) (Shape.Idx.first h_S_) = (⊤ : EReal) := inf_word
  rw [ht]
  refine Eq.trans ?_ (fold_min_top Finset.univ fun q : Fin 8192 => Z (ix3 b p q))
  exact congrArg (fun f => Finset.fold min (⊤ : EReal) f (Finset.univ : Finset (Fin 8192))) hf

/-- The minimum from +∞ along the middle axis of a table is, at (b, q), the infimum of column (b, q). -/
theorem hostMin_mid (Z : S4x8192x8192.Idx → Ideal .f32) (b : Fin 4) (q : Fin 8192) :
    Host.reduce (FloatOps.minimumf (F := Ideal) (φ := .f32)) Z (val_main_cst_7 (F := Ideal)) reducesTo_S4x8192x8192_S4x8192_d1 h_S_ (ix2 b q)
      = (Finset.univ : Finset (Fin 8192)).inf fun p => Z (ix3 b p q) := by
  have h : S4x8192x8192.Reduces [1] S4x8192 := by decide
  rw [Host.reduce_eq_fold_single (FloatOps.minimumf (F := Ideal) (φ := .f32)) Z _ reducesTo_S4x8192x8192_S4x8192_d1 h h_S_]
  have hf : (Z ∘ h.lift (ix2 b q)) = fun p : Fin 8192 => Z (ix3 b p q) :=
    funext fun k => congrArg Z (lift_mid h b q k)
  have ht : val_main_cst_7 (F := Ideal) (Shape.Idx.first h_S_) = (⊤ : EReal) := inf_word
  rw [ht]
  refine Eq.trans ?_ (fold_min_top Finset.univ fun p : Fin 8192 => Z (ix3 b p q))
  exact congrArg (fun f => Finset.fold min (⊤ : EReal) f (Finset.univ : Finset (Fin 8192))) hf

/-- Each point of the first cloud's distance to its nearest neighbour in the second. -/
theorem rowMin_apply (a0 a1 : (⟨S4x8192x3, .f32⟩ : BufTy).Contents (Elt Ideal)) (b : Fin 4) (p : Fin 8192) :
    val_main_v17 (F := Ideal) a0 a1 (ix2 b p)
      = (Finset.range 8192).inf fun j => distN (val_main_v1 (F := Ideal) a0) (val_main_v3 (F := Ideal) a1) b p.val j := by
  unfold val_main_v17
  rw [hostMin_last, ← inf_univ_eq_inf_range 8192]
  exact Finset.inf_congr rfl fun q _ => by rw [dist_apply, distN_val]

/-- Each point of the second cloud's distance to its nearest neighbour in the first. -/
theorem colMin_apply (a0 a1 : (⟨S4x8192x3, .f32⟩ : BufTy).Contents (Elt Ideal)) (b : Fin 4) (q : Fin 8192) :
    val_main_v21 (F := Ideal) a0 a1 (ix2 b q)
      = (Finset.range 8192).inf fun i => distN (val_main_v1 (F := Ideal) a0) (val_main_v3 (F := Ideal) a1) b i q.val := by
  unfold val_main_v21
  rw [hostMin_mid, ← inf_univ_eq_inf_range 8192 (fun i => distN _ _ b i q.val)]
  exact Finset.inf_congr rfl fun p _ => by rw [dist_apply, distN_val]

/-! ## The two means, added -/

/-- The reference's result, as a function of the two argument arrays, is the specification of the two divided clouds. -/
theorem ref_eq (a0 a1 : (⟨S4x8192x3, .f32⟩ : BufTy).Contents (Elt Ideal)) :
    val_main_v25 (F := Ideal) a0 a1 = G (val_main_v1 (F := Ideal) a0) (val_main_v3 (F := Ideal) a1) := by
  funext i
  obtain ⟨b, rfl⟩ : ∃ b : Fin 4, i = ix1 b := ⟨i 0, eq_ix1 i⟩
  have e18 : ∀ k : Fin 8192, idx_main_v18 (ix1 b) k = ix2 b k := fun k =>
    funext fun a => Fin.ext (by match a with | ⟨0, _⟩ => rfl | ⟨1, _⟩ => rfl)
  have e22 : ∀ k : Fin 8192, idx_main_v22 (ix1 b) k = ix2 b k := fun k =>
    funext fun a => Fin.ext (by match a with | ⟨0, _⟩ => rfl | ⟨1, _⟩ => rfl)
  rw [val_main_v25_apply, val_main_v20_apply, val_main_v24_apply, val_main_v18_apply, val_main_v22_apply,
    val_main_v19_apply, val_main_v23_apply, val_main_cst_5_apply, val_main_cst_8_apply, val_main_cst_6_apply,
    val_main_cst_9_apply]
  simp only [e18, e22, rowMin_apply, colMin_apply, Ideal.addf_def, Ideal.hostDivf_def, Ideal.ofBits_def,
    Ideal.ofBits_zero_f32, zero_add]
  rw [Fin.sum_univ_eq_sum_range (fun n => (Finset.range 8192).inf fun j =>
      distN (val_main_v1 (F := Ideal) a0) (val_main_v3 (F := Ideal) a1) b n j) 8192,
    Fin.sum_univ_eq_sum_range (fun n => (Finset.range 8192).inf fun i =>
      distN (val_main_v1 (F := Ideal) a0) (val_main_v3 (F := Ideal) a1) b i n) 8192]
  rfl

/-! ## The reference's run -/

/-- The reference runs to the end and leaves its two argument arrays unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The reference runs to the end with its result the specification of the two divided argument clouds, and leaves the
    two argument arrays unchanged. -/
theorem run_G (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v25)
            = G (val_main_v1 (F := Ideal) (m' ((c.tc : Thread nD τ).loc main_arg0)))
                (val_main_v3 (F := Ideal) (m' ((c.tc : Thread nD τ).loc main_arg1)))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run Cert.ReferenceIdeal.defs _ _).mono
    (fun _ h c => ⟨by rw [(h c).1, val_main_v25_eq, ref_eq], (h c).2⟩)
    (Cert.ReferenceIdeal.Value.run (F := Ideal) m' ρ')

end Cert.RefValue

end
-- ==== Proof.lean ====
/-
  The Chamfer distance of two clouds of 8192 points of ℝ³, per batch: the mean over the points of the first cloud of
  the squared distance to the nearest point of the second, plus the same with the clouds exchanged, squared distances
  written |x|² + |y|² − 2⟨x, y⟩.
  The kernel visits the 8192 × 8192 table of squared distances as 16 × 16 tiles of 512 × 512 entries, row by row of
  tiles, keeping a running minimum of every row of the current row of tiles, a running minimum of every column, and a
  running output to which each finished row-tile's and each finished column-tile's mean is added; the reference forms
  the whole table, takes both minima over whole axes, sums, divides by 8192 and adds.
  The two agree because a sum or a minimum over 8192 = 16 · 512 indices is the sum or minimum over 16 blocks of the
  sums or minima over each block of 512, and because division by 8192 is additive on the extended reals.
  Here: the kernel's two arrays are the reference's two divided clouds, and the five claims are assembled.
-/
import proofs.«169811_j3813930959465_1_alg».proof.Defs
import proofs.«169811_j3813930959465_1_alg».proof.Proof.Gen.Kernel
import proofs.«169811_j3813930959465_1_alg».proof.Proof.Gen.KernelIdeal
import proofs.«169811_j3813930959465_1_alg».proof.Proof.Gen.ReferenceIdeal
import proofs.«169811_j3813930959465_1_alg».proof.Proof.Gen.Pre_finite_inputs
import proofs.«169811_j3813930959465_1_alg».proof.Proof.FrameBits
import proofs.«169811_j3813930959465_1_alg».proof.Proof.FrameIdeal
import proofs.«169811_j3813930959465_1_alg».proof.Proof.RefValue
import proofs.«169811_j3813930959465_1_alg».proof.Proof.Blocks
import Idealize.ShloMosaic.Adequacy
import Idealize.ShloMosaic.Init

noncomputable section

namespace Cert.Proof

open Idealize.ShloMosaic Idealize.SL.Sem

/-! ## The kernel's two arrays are the reference's two divided clouds -/

/-- The kernel's first array, the first argument divided by the constant 1, is the reference's first divided cloud. -/
theorem bridge0 (m : (ℓ : Loc Cert.KernelIdeal.nD Cert.KernelIdeal.τ Cert.KernelIdeal.sig) → Buf (Elt Ideal) ℓ)
    (c : Dev Cert.KernelIdeal.nD) :
    Cert.ReferenceIdeal.Read.val_main_v1 (F := Ideal)
        (m ((c.tc : Thread Cert.KernelIdeal.nD Cert.KernelIdeal.τ).loc Cert.KernelIdeal.main_arg0))
      = (Cert.KernelIdeal.Gen.V m c Cert.KernelIdeal.main_v1 : Cert.Spec.Cloud.Idx → EReal) := by
  rw [Cert.KernelIdeal.Blocks.V_v1 m c]
  unfold Cert.ReferenceIdeal.Read.val_main_v1 Cert.ReferenceIdeal.Read.val_main_v0 Cert.ReferenceIdeal.Read.val_main_cst
  rfl

/-- The kernel's second array, the second argument divided by the constant 1, is the reference's second divided cloud. -/
theorem bridge1 (m : (ℓ : Loc Cert.KernelIdeal.nD Cert.KernelIdeal.τ Cert.KernelIdeal.sig) → Buf (Elt Ideal) ℓ)
    (c : Dev Cert.KernelIdeal.nD) :
    Cert.ReferenceIdeal.Read.val_main_v3 (F := Ideal)
        (m ((c.tc : Thread Cert.KernelIdeal.nD Cert.KernelIdeal.τ).loc Cert.KernelIdeal.main_arg1))
      = (Cert.KernelIdeal.Gen.V m c Cert.KernelIdeal.main_v3 : Cert.Spec.Cloud.Idx → EReal) := by
  rw [Cert.KernelIdeal.Blocks.V_v3 m c]
  unfold Cert.ReferenceIdeal.Read.val_main_v3 Cert.ReferenceIdeal.Read.val_main_v2 Cert.ReferenceIdeal.Read.val_main_cst_0
  rfl

/-! ## The claims -/

/-- The word-level kernel runs to the end and leaves its two argument arrays unchanged. -/
theorem frame_k : Cert.frame_Kernel (hKernel := Cert.Kernel.Gen.facts)
    (hPre_finite_inputs := Cert.Pre_finite_inputs.Gen.facts) :=
  fun m ρ _ => Cert.Kernel.FrameBits.frame (F := Bits) m ρ

/-- The kernel over the extended reals runs to the end and leaves its two argument arrays unchanged. -/
theorem frame_ki : Cert.frame_KernelIdeal (hKernelIdeal := Cert.KernelIdeal.Gen.facts)
    (hPre_finite_inputs := Cert.Pre_finite_inputs.Gen.facts) :=
  fun m ρ _ => Cert.KernelIdeal.FrameIdeal.frame m ρ

/-- Over the extended reals, from memories agreeing on the two arguments, the kernel and the reference both end with
    the specification of the two divided clouds as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (Cert.KernelIdeal.FrameIdeal.P0 m c) (Cert.KernelIdeal.FrameIdeal.P1 m c),
    Cert.KernelIdeal.FrameIdeal.run_value m ρ, ?_⟩
  refine (θ_run Cert.ReferenceIdeal.defs _ _).mono (fun _ h c => ⟨(h c).1.trans ?_, (h c).2⟩)
    (Cert.RefValue.run_G m' ρ')
  rw [(hagree c).1, (hagree c).2, bridge0 m c, bridge1 m c]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, trivial, algebraic⟩

end Cert.Proof

end
